-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x512x512 : Shape := ⟨4, ![8, 3, 512, 512]⟩
abbrev S8x512x512 : Shape := ⟨3, ![8, 512, 512]⟩
abbrev S_ : Shape := ⟨0, ![]⟩

class Facts : Prop where
  bcast_S_S8x3x512x512 : S_.BroadcastsInDim S8x3x512x512 (![] : Fin 0 → Fin S8x3x512x512.rank)
  reducesTo_S8x3x512x512_S_d0_1_2_3 : S8x3x512x512.ReducesTo [0, 1, 2, 3] S_
  h_S_ : 0 < S_.numel

variable [Facts]

def fn {F : FTy → Type} [FloatOps F] (main_arg0 : FVec F S8x3x512x512 .f32) (main_arg1 : FVec F S8x3x512x512 .f32) (main_arg2 : IVec S8x512x512 32) : IVec S_ 1 :=
  let main_v0 : FVec F S8x3x512x512 .f32 := Host.absf main_arg0
  let main_cst : FVec F S_ .f32 := constant S_ .f32 0x7F800000#32
  let main_v1 : FVec F S8x3x512x512 .f32 := broadcastInDim S8x3x512x512 ![] bcast_S_S8x3x512x512 main_cst
  let main_v2 : IVec S8x3x512x512 1 := cmpf .olt main_v0 main_v1
  let main_c : IVec S_ 1 := constantI S_ 1 1#1
  let main_v3 : IVec S_ 1 := (fun x v => Host.reduce IntOp.andi x v reducesTo_S8x3x512x512_S_d0_1_2_3 h_S_) main_v2 main_c
  let main_v4 : FVec F S8x3x512x512 .f32 := Host.absf main_arg1
  let main_cst_0 : FVec F S_ .f32 := constant S_ .f32 0x7F800000#32
  let main_v5 : FVec F S8x3x512x512 .f32 := broadcastInDim S8x3x512x512 ![] bcast_S_S8x3x512x512 main_cst_0
  let main_v6 : IVec S8x3x512x512 1 := cmpf .olt main_v4 main_v5
  let main_c_1 : IVec S_ 1 := constantI S_ 1 1#1
  let main_v7 : IVec S_ 1 := (fun x v => Host.reduce IntOp.andi x v reducesTo_S8x3x512x512_S_d0_1_2_3 h_S_) main_v6 main_c_1
  let main_v8 : IVec S_ 1 := andi main_v3 main_v7
  main_v8
-- ==== Kernel.lean ====
abbrev S8x3x512x512 : Shape := ⟨4, ![8, 3, 512, 512]⟩
abbrev S8x512x512 : Shape := ⟨3, ![8, 512, 512]⟩
abbrev S8x3x64x512 : Shape := ⟨4, ![8, 3, 64, 512]⟩
abbrev S8x64x512 : Shape := ⟨3, ![8, 64, 512]⟩
abbrev S8 : Shape := ⟨1, ![8]⟩
abbrev S8x1x1 : Shape := ⟨3, ![8, 1, 1]⟩
abbrev S_ : Shape := ⟨0, ![]⟩
abbrev S2097152 : Shape := ⟨1, ![2097152]⟩
abbrev S512 : Shape := ⟨1, ![512]⟩
abbrev S2097152x1 : Shape := ⟨2, ![2097152, 1]⟩
abbrev S1x1 : Shape := ⟨2, ![1, 1]⟩
abbrev S8x1x64x512 : Shape := ⟨4, ![8, 1, 64, 512]⟩
abbrev S64x512 : Shape := ⟨2, ![64, 512]⟩
abbrev S1x512 : Shape := ⟨2, ![1, 512]⟩
abbrev S1 : Shape := ⟨1, ![1]⟩

abbrev nBuf : Space → Nat
  | .hbm => 65
  | .vmem => 13
  | .smem => 0
  | _ => 0

abbrev bufTy : (tb : Table) → Fin (tcTables nBuf tb) → BufTy
  | .hbm, ⟨0, _⟩ => ⟨S8x3x512x512, .f32⟩
  | .hbm, ⟨1, _⟩ => ⟨S8x3x512x512, .f32⟩
  | .hbm, ⟨2, _⟩ => ⟨S8x512x512, .i32⟩
  | .hbm, ⟨3, _⟩ => ⟨S8x512x512, .f32⟩
  | .hbm, ⟨4, _⟩ => ⟨S8, .i32⟩
  | .hbm, ⟨5, _⟩ => ⟨S8x1x1, .i32⟩
  | .hbm, ⟨6, _⟩ => ⟨S_, .i32⟩
  | .hbm, ⟨7, _⟩ => ⟨S8x1x1, .i32⟩
  | .hbm, ⟨8, _⟩ => ⟨S8x1x1, .i32⟩
  | .hbm, ⟨9, _⟩ => ⟨S8x512x512, .i32⟩
  | .hbm, ⟨10, _⟩ => ⟨S8x512x512, .i32⟩
  | .hbm, ⟨11, _⟩ => ⟨S2097152, .i32⟩
  | .hbm, ⟨12, _⟩ => ⟨S2097152, .f32⟩
  | .hbm, ⟨13, _⟩ => ⟨S_, .f32⟩
  | .hbm, ⟨14, _⟩ => ⟨S512, .f32⟩
  | .hbm, ⟨15, _⟩ => ⟨S2097152x1, .i32⟩
  | .hbm, ⟨16, _⟩ => ⟨S512, .f32⟩
  | .hbm, ⟨17, _⟩ => ⟨S_, .f32⟩
  | .hbm, ⟨18, _⟩ => ⟨S8x512x512, .f32⟩
  | .hbm, ⟨19, _⟩ => ⟨S2097152, .f32⟩
  | .hbm, ⟨20, _⟩ => ⟨S_, .f32⟩
  | .hbm, ⟨21, _⟩ => ⟨S512, .f32⟩
  | .hbm, ⟨22, _⟩ => ⟨S2097152x1, .i32⟩
  | .hbm, ⟨23, _⟩ => ⟨S512, .f32⟩
  | .hbm, ⟨24, _⟩ => ⟨S_, .f32⟩
  | .hbm, ⟨25, _⟩ => ⟨S512, .f32⟩
  | .hbm, ⟨26, _⟩ => ⟨S512, .f32⟩
  | .hbm, ⟨27, _⟩ => ⟨S_, .f32⟩
  | .hbm, ⟨28, _⟩ => ⟨S512, .f32⟩
  | .hbm, ⟨29, _⟩ => ⟨S512, .f32⟩
  | .hbm, ⟨30, _⟩ => ⟨S512, .f32⟩
  | .hbm, ⟨31, _⟩ => ⟨S_, .i32⟩
  | .hbm, ⟨32, _⟩ => ⟨S2097152, .i32⟩
  | .hbm, ⟨33, _⟩ => ⟨S2097152, .i1⟩
  | .hbm, ⟨34, _⟩ => ⟨S_, .i32⟩
  | .hbm, ⟨35, _⟩ => ⟨S2097152, .i32⟩
  | .hbm, ⟨36, _⟩ => ⟨S2097152, .i32⟩
  | .hbm, ⟨37, _⟩ => ⟨S2097152, .i32⟩
  | .hbm, ⟨38, _⟩ => ⟨S2097152x1, .i32⟩
  | .hbm, ⟨39, _⟩ => ⟨S2097152, .f32⟩
  | .hbm, ⟨40, _⟩ => ⟨S8x512x512, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .i1⟩
  | .hbm, ⟨45, _⟩ => ⟨S_, .f32⟩
  | .hbm, ⟨46, _⟩ => ⟨S_, .i1⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S8x512x512, .f32⟩
  | .hbm, ⟨51, _⟩ => ⟨S8x512x512, .f32⟩
  | .hbm, ⟨52, _⟩ => ⟨S8x512x512, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S8x512x512, .f32⟩
  | .hbm, ⟨57, _⟩ => ⟨S8x512x512, .f32⟩
  | .hbm, ⟨58, _⟩ => ⟨S_, .f32⟩
  | .hbm, ⟨59, _⟩ => ⟨S8x512x512, .f32⟩
  | .hbm, ⟨60, _⟩ => ⟨S8x512x512, .f32⟩
  | .hbm, ⟨61, _⟩ => ⟨S1x1, .f32⟩
  | .hbm, ⟨62, _⟩ => ⟨S_, .f32⟩
  | .hbm, ⟨63, _⟩ => ⟨S_, .f32⟩
  | .hbm, ⟨64, _⟩ => ⟨S_, .f32⟩
  | .local _ .vmem, ⟨0, _⟩ => ⟨S8x3x64x512, .f32⟩
  | .local _ .vmem, ⟨1, _⟩ => ⟨S8x3x64x512, .f32⟩
  | .local _ .vmem, ⟨2, _⟩ => ⟨S8x3x64x512, .f32⟩
  | .local _ .vmem, ⟨3, _⟩ => ⟨S8x3x64x512, .f32⟩
  | .local _ .vmem, ⟨4, _⟩ => ⟨S8x64x512, .f32⟩
  | .local _ .vmem, ⟨5, _⟩ => ⟨S8x64x512, .f32⟩
  | .local _ .vmem, ⟨6, _⟩ => ⟨S8x3x64x512, .f32⟩
  | .local _ .vmem, ⟨7, _⟩ => ⟨S8x3x64x512, .f32⟩
  | .local _ .vmem, ⟨8, _⟩ => ⟨S8x3x64x512, .f32⟩
  | .local _ .vmem, ⟨9, _⟩ => ⟨S8x3x64x512, .f32⟩
  | .local _ .vmem, ⟨10, _⟩ => ⟨S8x64x512, .f32⟩
  | .local _ .vmem, ⟨11, _⟩ => ⟨S8x64x512, .f32⟩
  | .local _ .vmem, ⟨12, _⟩ => ⟨S1x1, .f32⟩
  | _, _ => ⟨S8x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_cst_9 : Ref sig .tc := ⟨.hbm, 47, rfl⟩
abbrev main_call0_v0 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_cst_11 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_12 : Ref sig .tc := ⟨.hbm, 63, rfl⟩
abbrev main_v40 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x3x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8x3x64x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x3x64x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x64x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  inb_S8x3x64x512_S8x3x64x512_0_0_0_0 : ∀ a, (![0, 0, 0, 0] : Fin 4 → Nat) a + S8x3x64x512.size a ≤ S8x3x64x512.size a
  h_S8x3x64x512 : 0 < S8x3x64x512.numel
  reduces_S8x3x64x512_S8x64x512 : S8x3x64x512.Reduces [1] S8x64x512
  inb_S8x64x512_S8x64x512_0_0_0 : ∀ a, (![0, 0, 0] : Fin 3 → Nat) a + S8x64x512.size a ≤ S8x64x512.size a
  h_S8x64x512 : 0 < S8x64x512.numel
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S8x1x1_S8x512x512_0_1_2 : S8x1x1.BroadcastsInDim S8x512x512 (![0, 1, 2] : Fin 3 → Fin S8x512x512.rank)
  shapeCasts_S8x512x512_S2097152 : S8x512x512.ShapeCasts S2097152
  bcast_S_S512 : S_.BroadcastsInDim S512 (![] : Fin 0 → Fin S512.rank)
  bcast_S2097152_S2097152x1_0 : S2097152.BroadcastsInDim S2097152x1 (![0] : Fin 1 → Fin S2097152x1.rank)
  bcast_S_S8x512x512 : S_.BroadcastsInDim S8x512x512 (![] : Fin 0 → Fin S8x512x512.rank)
  bcast_S_S2097152 : S_.BroadcastsInDim S2097152 (![] : Fin 0 → Fin S2097152.rank)
  shapeCasts_S2097152_S8x512x512 : S2097152.ShapeCasts S8x512x512
  reducesTo_S8x512x512_S_d0_1_2 : S8x512x512.ReducesTo [0, 1, 2] S_
  h_S_ : 0 < S_.numel
  inb_S1x1_S1x1_0_0 : ∀ a, (![0, 0] : Fin 2 → Nat) a + S1x1.size a ≤ S1x1.size a
  h_S1x1 : 0 < S1x1.numel
  shapeCasts_S8x64x512_S8x64x512 : S8x64x512.ShapeCasts S8x64x512
  shapeCasts_S8x64x512_S8x1x64x512 : S8x64x512.ShapeCasts S8x1x64x512
  broadcasts_S8x1x64x512_S8x3x64x512 : S8x1x64x512.Broadcasts S8x3x64x512
  reduces_S8x64x512_S64x512 : S8x64x512.Reduces [0] S64x512
  reduces_S64x512_S512 : S64x512.Reduces [0] S512
  shapeCasts_S512_S1x512 : S512.ShapeCasts S1x512
  reduces_S1x512_S1 : S1x512.Reduces [1] S1
  shapeCasts_S1_S1x1 : S1.ShapeCasts S1x1
  shapeCasts_S1x1_S1x1 : S1x1.ShapeCasts S1x1
  shapeCasts_S1x1_S_ : S1x1.ShapeCasts S_
  scatter_S512_S2097152x1_S2097152_n_0_0_1_wf : ScatterDims.WF S512 S2097152x1 S2097152 [] [0] [0] 1
  gather_S512_S2097152x1_S2097152_n_0_n_n_0_1_1_wf : GatherDims.WF S512 S2097152x1 S2097152 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3x64x512.size a ≤ S8x3x512x512.size a
  hwx0_0 : ∀ i : grid0.Coords, EltTy.bits .f32 = 32 ∨ (Rect.block (s := S8x3x512x512) S8x3x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x3x64x512.size a ≤ S8x3x512x512.size a
  hwx0_1 : ∀ i : grid0.Coords, EltTy.bits .f32 = 32 ∨ (Rect.block (s := S8x3x512x512) S8x3x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x64x512.size a ≤ S8x512x512.size a
  hwx0_2 : ∀ i : grid0.Coords, EltTy.bits .f32 = 32 ∨ (Rect.block (s := S8x512x512) S8x64x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x3x64x512.size a ≤ S8x3x512x512.size a
  hwx1_0 : ∀ i : grid1.Coords, EltTy.bits .f32 = 32 ∨ (Rect.block (s := S8x3x512x512) S8x3x64x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x3x64x512.size a ≤ S8x3x512x512.size a
  hwx1_1 : ∀ i : grid1.Coords, EltTy.bits .f32 = 32 ∨ (Rect.block (s := S8x3x512x512) S8x3x64x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x64x512.size a ≤ S8x512x512.size a
  hwx1_2 : ∀ i : grid1.Coords, EltTy.bits .f32 = 32 ∨ (Rect.block (s := S8x512x512) S8x64x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

def scatter_S512_S2097152x1_S2097152_n_0_0_1 : ScatterDims S512 S2097152x1 S2097152 where
  updateWindowDims := []
  insertedWindowDims := [0]
  scatterDimsToOperandDims := [0]
  indexVectorDim := 1
  wf := scatter_S512_S2097152x1_S2097152_n_0_0_1_wf
def gather_S512_S2097152x1_S2097152_n_0_n_n_0_1_1 : GatherDims S512 S2097152x1 S2097152 where
  offsetDims := []
  collapsedSliceDims := [0]
  operandBatchingDims := []
  startIndicesBatchingDims := []
  startIndexMap := [0]
  indexVectorDim := 1
  sliceSizes := ![1]
  wf := gather_S512_S2097152x1_S2097152_n_0_n_n_0_1_1_wf

abbrev win0_0 : Pipeline.Window sig grid0 :=
  Pipeline.Window.ofSpec (Memref.whole main_arg0) S8x3x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x3x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x64x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S8x3x64x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8x3x64x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S8x64x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x3x512x512 : Shape := ⟨4, ![8, 3, 512, 512]⟩
abbrev S8x512x512 : Shape := ⟨3, ![8, 512, 512]⟩
abbrev S_ : Shape := ⟨0, ![]⟩
abbrev S8 : Shape := ⟨1, ![8]⟩
abbrev S8x1x1 : Shape := ⟨3, ![8, 1, 1]⟩
abbrev S2097152 : Shape := ⟨1, ![2097152]⟩
abbrev S512 : Shape := ⟨1, ![512]⟩
abbrev S2097152x1 : Shape := ⟨2, ![2097152, 1]⟩
abbrev S8x1x512x512 : Shape := ⟨4, ![8, 1, 512, 512]⟩

abbrev nBuf : Space → Nat
  | .hbm => 77
  | .vmem => 0
  | .smem => 0
  | _ => 0

abbrev bufTy : (tb : Table) → Fin (tcTables nBuf tb) → BufTy
  | .hbm, ⟨0, _⟩ => ⟨S8x3x512x512, .f32⟩
  | .hbm, ⟨1, _⟩ => ⟨S8x3x512x512, .f32⟩
  | .hbm, ⟨2, _⟩ => ⟨S8x512x512, .i32⟩
  | .hbm, ⟨3, _⟩ => ⟨S8x3x512x512, .f32⟩
  | .hbm, ⟨4, _⟩ => ⟨S8x3x512x512, .f32⟩
  | .hbm, ⟨5, _⟩ => ⟨S_, .f32⟩
  | .hbm, ⟨6, _⟩ => ⟨S8x512x512, .f32⟩
  | .hbm, ⟨7, _⟩ => ⟨S8, .i32⟩
  | .hbm, ⟨8, _⟩ => ⟨S8x1x1, .i32⟩
  | .hbm, ⟨9, _⟩ => ⟨S_, .i32⟩
  | .hbm, ⟨10, _⟩ => ⟨S8x1x1, .i32⟩
  | .hbm, ⟨11, _⟩ => ⟨S8x1x1, .i32⟩
  | .hbm, ⟨12, _⟩ => ⟨S8x512x512, .i32⟩
  | .hbm, ⟨13, _⟩ => ⟨S8x512x512, .i32⟩
  | .hbm, ⟨14, _⟩ => ⟨S2097152, .i32⟩
  | .hbm, ⟨15, _⟩ => ⟨S2097152, .f32⟩
  | .hbm, ⟨16, _⟩ => ⟨S_, .f32⟩
  | .hbm, ⟨17, _⟩ => ⟨S512, .f32⟩
  | .hbm, ⟨18, _⟩ => ⟨S2097152x1, .i32⟩
  | .hbm, ⟨19, _⟩ => ⟨S512, .f32⟩
  | .hbm, ⟨20, _⟩ => ⟨S_, .f32⟩
  | .hbm, ⟨21, _⟩ => ⟨S8x512x512, .f32⟩
  | .hbm, ⟨22, _⟩ => ⟨S2097152, .f32⟩
  | .hbm, ⟨23, _⟩ => ⟨S_, .f32⟩
  | .hbm, ⟨24, _⟩ => ⟨S512, .f32⟩
  | .hbm, ⟨25, _⟩ => ⟨S2097152x1, .i32⟩
  | .hbm, ⟨26, _⟩ => ⟨S512, .f32⟩
  | .hbm, ⟨27, _⟩ => ⟨S_, .f32⟩
  | .hbm, ⟨28, _⟩ => ⟨S512, .f32⟩
  | .hbm, ⟨29, _⟩ => ⟨S512, .f32⟩
  | .hbm, ⟨30, _⟩ => ⟨S_, .f32⟩
  | .hbm, ⟨31, _⟩ => ⟨S512, .f32⟩
  | .hbm, ⟨32, _⟩ => ⟨S512, .f32⟩
  | .hbm, ⟨33, _⟩ => ⟨S512, .f32⟩
  | .hbm, ⟨34, _⟩ => ⟨S_, .i32⟩
  | .hbm, ⟨35, _⟩ => ⟨S2097152, .i32⟩
  | .hbm, ⟨36, _⟩ => ⟨S2097152, .i1⟩
  | .hbm, ⟨37, _⟩ => ⟨S_, .i32⟩
  | .hbm, ⟨38, _⟩ => ⟨S2097152, .i32⟩
  | .hbm, ⟨39, _⟩ => ⟨S2097152, .i32⟩
  | .hbm, ⟨40, _⟩ => ⟨S2097152, .i32⟩
  | .hbm, ⟨41, _⟩ => ⟨S2097152x1, .i32⟩
  | .hbm, ⟨42, _⟩ => ⟨S2097152, .f32⟩
  | .hbm, ⟨43, _⟩ => ⟨S8x512x512, .f32⟩
  | .hbm, ⟨44, _⟩ => ⟨S8x1x512x512, .f32⟩
  | .hbm, ⟨45, _⟩ => ⟨S8x3x512x512, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .i1⟩
  | .hbm, ⟨50, _⟩ => ⟨S_, .f32⟩
  | .hbm, ⟨51, _⟩ => ⟨S_, .i1⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S8x3x512x512, .f32⟩
  | .hbm, ⟨56, _⟩ => ⟨S8x3x512x512, .f32⟩
  | .hbm, ⟨57, _⟩ => ⟨S8x3x512x512, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S8x3x512x512, .f32⟩
  | .hbm, ⟨62, _⟩ => ⟨S8x3x512x512, .f32⟩
  | .hbm, ⟨63, _⟩ => ⟨S_, .f32⟩
  | .hbm, ⟨64, _⟩ => ⟨S8x3x512x512, .f32⟩
  | .hbm, ⟨65, _⟩ => ⟨S8x3x512x512, .f32⟩
  | .hbm, ⟨66, _⟩ => ⟨S_, .f32⟩
  | .hbm, ⟨67, _⟩ => ⟨S8x3x512x512, .f32⟩
  | .hbm, ⟨68, _⟩ => ⟨S8x3x512x512, .f32⟩
  | .hbm, ⟨69, _⟩ => ⟨S_, .f32⟩
  | .hbm, ⟨70, _⟩ => ⟨S8x3x512x512, .f32⟩
  | .hbm, ⟨71, _⟩ => ⟨S8x3x512x512, .f32⟩
  | .hbm, ⟨72, _⟩ => ⟨S8x3x512x512, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | _, _ => ⟨S8x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_cst_10 : Ref sig .tc := ⟨.hbm, 52, rfl⟩
abbrev main_call0_v0 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_cst_12 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_v41 : Ref sig .tc := ⟨.hbm, 65, rfl⟩
abbrev main_cst_13 : Ref sig .tc := ⟨.hbm, 66, rfl⟩
abbrev main_v42 : Ref sig .tc := ⟨.hbm, 67, rfl⟩
abbrev main_v43 : Ref sig .tc := ⟨.hbm, 68, rfl⟩
abbrev main_cst_14 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_15 : Ref sig .tc := ⟨.hbm, 73, rfl⟩
abbrev main_v47 : Ref sig .tc := ⟨.hbm, 74, rfl⟩
abbrev main_cst_16 : Ref sig .tc := ⟨.hbm, 75, rfl⟩
abbrev main_v48 : Ref sig .tc := ⟨.hbm, 76, rfl⟩

abbrev nD : Nat := 1
abbrev τ : Topo := Topo.v7x

variable {F : FTy → Type} [FloatOps F]

class Facts₀ : Prop where
  reducesTo_S8x3x512x512_S8x512x512_d1 : S8x3x512x512.ReducesTo [1] S8x512x512
  h_S_ : 0 < S_.numel
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S8x1x1_S8x512x512_0_1_2 : S8x1x1.BroadcastsInDim S8x512x512 (![0, 1, 2] : Fin 3 → Fin S8x512x512.rank)
  shapeCasts_S8x512x512_S2097152 : S8x512x512.ShapeCasts S2097152
  bcast_S_S512 : S_.BroadcastsInDim S512 (![] : Fin 0 → Fin S512.rank)
  bcast_S2097152_S2097152x1_0 : S2097152.BroadcastsInDim S2097152x1 (![0] : Fin 1 → Fin S2097152x1.rank)
  bcast_S_S8x512x512 : S_.BroadcastsInDim S8x512x512 (![] : Fin 0 → Fin S8x512x512.rank)
  bcast_S_S2097152 : S_.BroadcastsInDim S2097152 (![] : Fin 0 → Fin S2097152.rank)
  shapeCasts_S2097152_S8x512x512 : S2097152.ShapeCasts S8x512x512
  bcast_S8x512x512_S8x1x512x512_0_2_3 : S8x512x512.BroadcastsInDim S8x1x512x512 (![0, 2, 3] : Fin 3 → Fin S8x1x512x512.rank)
  bcast_S8x1x512x512_S8x3x512x512_0_1_2_3 : S8x1x512x512.BroadcastsInDim S8x3x512x512 (![0, 1, 2, 3] : Fin 4 → Fin S8x3x512x512.rank)
  reducesTo_S8x3x512x512_S_d0_1_2_3 : S8x3x512x512.ReducesTo [0, 1, 2, 3] S_
  bcast_S_S8x3x512x512 : S_.BroadcastsInDim S8x3x512x512 (![] : Fin 0 → Fin S8x3x512x512.rank)
  scatter_S512_S2097152x1_S2097152_n_0_0_1_wf : ScatterDims.WF S512 S2097152x1 S2097152 [] [0] [0] 1
  gather_S512_S2097152x1_S2097152_n_0_n_n_0_1_1_wf : GatherDims.WF S512 S2097152x1 S2097152 [] [0] [] [0] [] 1 ![1]

variable [Facts₀]

def scatter_S512_S2097152x1_S2097152_n_0_0_1 : ScatterDims S512 S2097152x1 S2097152 where
  updateWindowDims := []
  insertedWindowDims := [0]
  scatterDimsToOperandDims := [0]
  indexVectorDim := 1
  wf := scatter_S512_S2097152x1_S2097152_n_0_0_1_wf
def gather_S512_S2097152x1_S2097152_n_0_n_n_0_1_1 : GatherDims S512 S2097152x1 S2097152 where
  offsetDims := []
  collapsedSliceDims := [0]
  operandBatchingDims := []
  startIndicesBatchingDims := []
  startIndexMap := [0]
  indexVectorDim := 1
  sliceSizes := ![1]
  wf := gather_S512_S2097152x1_S2097152_n_0_n_n_0_1_1_wf

class Facts : Prop extends Facts₀ where

variable [Facts]
-- ==== Proof.KernelRun.lean ====
/-
  The idealized kernel's run with its result named. Every weakly fair execution of @main terminates, nothing faulting;
  the result buffer ends at what the last host stretch leaves there, `W9 m ρ c` read at the result's reference — the
  contents after the second region followed by the reshape and the division —, and the three arguments end as launched.
  The run is the launch over @main's nine segments (a region, six host stretches, a region, a host stretch) with the
  final thread state read against the final memory, once more for the result's reference.
-/
import proofs.«118710_j35673998361264_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents and the arguments as launched. -/
theorem run_result : θ_run defs (onTc (τ := τ) (main (F := F))) ⟨m, fun _ => 0, ρ⟩ (fun r => ∀ c : Dev nD,
      r.2.mem ((c.tc : Thread nD τ).loc main_v40) = W9 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v40 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c)⟩)

end Cert.KernelIdeal.KRun

end
-- ==== Proof.HostStages.lean ====
/-
  The idealized kernel's host operations between its two regions and after the second, read one stretch at a time.
  Each lemma is about ONE stretch of operations applied to an arbitrary valuation `W` of the buffers (what the stretch is
  entered with) and says what one buffer holds afterwards, as the operations' functions of the entry contents:
    the long first stretch leaves the pre-weights g (buffer main_v29: the per-pixel region mean gathered back), their
      maximum M over all of [8,512,512] from -inf (main_v30), the comparison M > 0 twice (main_v31, main_v32) and the
      constant one (main_cst_9);
    the first outlined function selects the divisor d = M if M > 0, else one (main_v33);
    the next stretch divides, g / d entrywise (main_v35);
    the second outlined function selects g / d if M > 0, else g (main_v36);
    two constants zero and one (main_cst_10, main_cst_11);
    the third outlined function clips to [0, 1]: min(one, max(zero, ·)) (main_v37);
    after the second region, its [1,1] output is reshaped to a scalar and divided by the constant 6291456 (main_v40).
  A stretch leaves every buffer it does not write as it found it.
-/
import proofs.«118710_j35673998361264_2_alg».proof.Proof.Gen.KernelIdeal.Frame

noncomputable section

namespace Cert.KernelIdeal.HostStages

open Cert.KernelIdeal Cert.KernelIdeal.Gen Idealize.ShloMosaic Idealize.ShloMosaic.TcCoe Idealize.SL.Sem Idealize.ShloMosaic.StableHlo

variable {F : FTy → Type} [FloatOps F] (W : Valuation τ sig (Elt F))

/-! ## The first stretch: what its last values are of the pre-weights it leaves -/

set_option maxHeartbeats 4000000 in
/-- The maximum: the max-reduce of the pre-weights over every axis, from the constant -inf. -/
theorem first_max :
    after hostOps1 W (Proc.devRef .tc main_v30)
      = Host.reduce FloatOps.maximumf (after hostOps1 W (Proc.devRef .tc main_v29)) (constant S_ .f32 0xFF800000#32) reducesTo_S8x512x512_S_d0_1_2 h_S_ := by
  simp only [hostOps1]
  after_results_simp

set_option maxHeartbeats 4000000 in
/-- The first comparison of the maximum with zero. -/
theorem first_pos :
    after hostOps1 W (Proc.devRef .tc main_v31)
      = cmpf .ogt (after hostOps1 W (Proc.devRef .tc main_v30)) (constant S_ .f32 0x00000000#32) := by
  simp only [hostOps1]
  after_results_simp

set_option maxHeartbeats 4000000 in
/-- The second comparison of the maximum with zero. -/
theorem first_pos' :
    after hostOps1 W (Proc.devRef .tc main_v32)
      = cmpf .ogt (after hostOps1 W (Proc.devRef .tc main_v30)) (constant S_ .f32 0x00000000#32) := by
  simp only [hostOps1]
  after_results_simp

set_option maxHeartbeats 4000000 in
/-- The constant one the first outlined function falls back to. -/
theorem first_one :
    after hostOps1 W (Proc.devRef .tc main_cst_9) = constant S_ .f32 0x3F800000#32 := by
  simp only [hostOps1]
  after_results_simp

/-! ## The first outlined function: the divisor -/

theorem divisor :
    after hostOps1_1 W (Proc.devRef .tc main_v33)
      = select (W (Proc.devRef .tc main_v32)) (W (Proc.devRef .tc main_v30)) (W (Proc.devRef .tc main_cst_9)) := by
  simp only [hostOps1_1]
  after_results
  rfl

theorem divisor_keeps_v29 : after hostOps1_1 W (Proc.devRef .tc main_v29) = W (Proc.devRef .tc main_v29) := by
  simp only [hostOps1_1]
  after_results

theorem divisor_keeps_v31 : after hostOps1_1 W (Proc.devRef .tc main_v31) = W (Proc.devRef .tc main_v31) := by
  simp only [hostOps1_1]
  after_results

/-! ## The quotient -/

theorem quotient :
    after hostOps1_2 W (Proc.devRef .tc main_v35)
      = Host.divf (W (Proc.devRef .tc main_v29)) (broadcastInDim S8x512x512 ![] bcast_S_S8x512x512 (W (Proc.devRef .tc main_v33))) := by
  simp only [hostOps1_2]
  after_results

theorem quotient_keeps_v29 : after hostOps1_2 W (Proc.devRef .tc main_v29) = W (Proc.devRef .tc main_v29) := by
  simp only [hostOps1_2]
  after_results

theorem quotient_keeps_v31 : after hostOps1_2 W (Proc.devRef .tc main_v31) = W (Proc.devRef .tc main_v31) := by
  simp only [hostOps1_2]
  after_results

/-! ## The second outlined function: normalized or not -/

theorem normalized :
    after hostOps1_3 W (Proc.devRef .tc main_v36)
      = select (broadcastInDim S8x512x512 ![] bcast_S_S8x512x512 (W (Proc.devRef .tc main_v31))) (W (Proc.devRef .tc main_v35)) (W (Proc.devRef .tc main_v29)) := by
  simp only [hostOps1_3]
  after_results
  rfl

/-! ## The two constants -/

theorem bounds_zero : after hostOps1_4 W (Proc.devRef .tc main_cst_10) = constant S_ .f32 0x00000000#32 := by
  simp only [hostOps1_4]
  after_results

theorem bounds_one : after hostOps1_4 W (Proc.devRef .tc main_cst_11) = constant S_ .f32 0x3F800000#32 := by
  simp only [hostOps1_4]
  after_results

theorem bounds_keeps_v36 : after hostOps1_4 W (Proc.devRef .tc main_v36) = W (Proc.devRef .tc main_v36) := by
  simp only [hostOps1_4]
  after_results

/-! ## The third outlined function: the clip -/

theorem clipped :
    after hostOps1_5 W (Proc.devRef .tc main_v37)
      = minimumf (broadcastInDim S8x512x512 ![] bcast_S_S8x512x512 (W (Proc.devRef .tc main_cst_11)))
          (maximumf (broadcastInDim S8x512x512 ![] bcast_S_S8x512x512 (W (Proc.devRef .tc main_cst_10))) (W (Proc.devRef .tc main_v36))) := by
  simp only [hostOps1_5]
  after_results
  rfl

/-! ## After the second region: the mean -/

theorem mean :
    after hostOps2 W (Proc.devRef .tc main_v40)
      = Host.divf (shapeCast S_ (W (Proc.devRef .tc main_v38)) shapeCasts_S1x1_S_) (constant S_ .f32 0x4AC00000#32) := by
  simp only [hostOps2]
  after_results
  rfl

end Cert.KernelIdeal.HostStages

end
-- ==== Proof.KernelWeights.lean ====
/-
  The idealized kernel's weight array as a function of the arguments.
  Entered with the channel sums s in buffer main_v0 and the mask in main_arg2, the host stretches between the two regions
  compute, in this order: the pre-weights g (the same operations the reference applies to its own channel sums: two
  segment sums, the region means, the gather back), their maximum M, whether M > 0, the divisor d (M if M > 0, else one),
  the quotient g / d, the choice between g / d and g, and the clip to [0, 1].
  When the channel sums the kernel enters with are the reference's, g is the reference's pre-weight stage, term for
  term; M is the reference's maximum once a max-reduce is known not to change when its operand is repeated along a new
  axis (the reference takes its maximum after broadcasting g over the three channels: the hypothesis `hmax`); and the
  comparisons and the divisor are then the reference's scalar stages. From the quotient on the two programs differ in
  shape only — [8,512,512] here, [8,3,512,512] there — so the weight is stated as its own array, `weight`.
-/
import proofs.«118710_j35673998361264_2_alg».proof.Proof.Gen.KernelIdeal.Frame
import proofs.«118710_j35673998361264_2_alg».proof.Proof.HostStages
import proofs.«118710_j35673998361264_2_alg».proof.Proof.RefRead

noncomputable section

namespace Cert.KernelIdeal.Weights

open Cert.KernelIdeal Cert.KernelIdeal.Gen Idealize.ShloMosaic Idealize.ShloMosaic.TcCoe Idealize.SL.Sem Idealize.ShloMosaic.StableHlo
open Cert.ReferenceIdeal.ReadP

/-- The type of the two float arguments' contents, and of the mask's. -/
abbrev RX : Type := (⟨Cert.ReferenceIdeal.S8x3x512x512, .f32⟩ : BufTy).Contents (Elt Ideal)
abbrev RM : Type := (⟨Cert.ReferenceIdeal.S8x512x512, .i32⟩ : BufTy).Contents (Elt Ideal)

/-- The kernel's weight array: min(one, max(zero, (g / d if M > 0 else g))), g the pre-weights, d the divisor. -/
def weight (x0 x1 : RX) (x2 : RM) : (⟨S8x512x512, .f32⟩ : BufTy).Contents (Elt Ideal) :=
  minimumf (broadcastInDim S8x512x512 ![] bcast_S_S8x512x512 (constant (F := Ideal) S_ .f32 0x3F800000#32))
    (maximumf (broadcastInDim S8x512x512 ![] bcast_S_S8x512x512 (constant (F := Ideal) S_ .f32 0x00000000#32))
      (select (broadcastInDim S8x512x512 ![] bcast_S_S8x512x512 (val_main_v35 (F := Ideal) x0 x1 x2))
        (Host.divf (F := Ideal) (val_main_v31 (F := Ideal) x0 x1 x2)
          (broadcastInDim S8x512x512 ![] bcast_S_S8x512x512 (val_main_v37 (F := Ideal) x0 x1 x2)))
        (val_main_v31 (F := Ideal) x0 x1 x2)))

variable (W₁ : Valuation τ sig (Elt Ideal)) (x0 x1 : RX) (x2 : RM)
  (h0 : W₁ (Proc.devRef .tc main_v0) = val_main_v2 (F := Ideal) x0 x1) (h2 : W₁ (Proc.devRef .tc main_arg2) = x2)

include h0 h2 in
set_option maxHeartbeats 4000000 in
/-- The pre-weights are the reference's stage: the same operations on the same channel sums and mask. -/
theorem preweights : after hostOps1 W₁ (Proc.devRef .tc main_v29) = val_main_v31 (F := Ideal) x0 x1 x2 := by
  simp only [hostOps1]
  after_results_simp
  rw [h0, h2]
  rfl

variable (hmax : Host.reduce FloatOps.maximumf (val_main_v31 (F := Ideal) x0 x1 x2) (constant (F := Ideal) S_ .f32 0xFF800000#32)
    reducesTo_S8x512x512_S_d0_1_2 h_S_ = val_main_v34 (F := Ideal) x0 x1 x2)

include h0 h2 hmax in
/-- The maximum is the reference's. -/
theorem maximum : after hostOps1 W₁ (Proc.devRef .tc main_v30) = val_main_v34 (F := Ideal) x0 x1 x2 :=
  (HostStages.first_max W₁).trans (by rw [preweights W₁ x0 x1 x2 h0 h2]; exact hmax)

include h0 h2 hmax in
/-- Whether the maximum is positive: the reference's first comparison. -/
theorem positive : after hostOps1 W₁ (Proc.devRef .tc main_v31) = val_main_v35 (F := Ideal) x0 x1 x2 :=
  (HostStages.first_pos W₁).trans (by rw [maximum W₁ x0 x1 x2 h0 h2 hmax]; rfl)

include h0 h2 hmax in
/-- … and its second. -/
theorem positive' : after hostOps1 W₁ (Proc.devRef .tc main_v32) = val_main_v36 (F := Ideal) x0 x1 x2 :=
  (HostStages.first_pos' W₁).trans (by rw [maximum W₁ x0 x1 x2 h0 h2 hmax]; rfl)

/-- The constant one. -/
theorem the_one : after hostOps1 W₁ (Proc.devRef .tc main_cst_9) = val_main_cst_10 (F := Ideal) :=
  (HostStages.first_one W₁).trans rfl

include h0 h2 hmax in
/-- After the six stretches the weight buffer holds `weight` of the arguments. -/
theorem weight_eq :
    after hostOps1_5 (after hostOps1_4 (after hostOps1_3 (after hostOps1_2 (after hostOps1_1 (after hostOps1 W₁)))))
        (Proc.devRef .tc main_v37) = weight x0 x1 x2 := by
  rw [HostStages.clipped, HostStages.bounds_zero, HostStages.bounds_one, HostStages.bounds_keeps_v36, HostStages.normalized,
    HostStages.quotient, HostStages.quotient_keeps_v29, HostStages.quotient_keeps_v31, HostStages.divisor,
    HostStages.divisor_keeps_v29, HostStages.divisor_keeps_v31,
    positive W₁ x0 x1 x2 h0 h2 hmax, positive' W₁ x0 x1 x2 h0 h2 hmax, maximum W₁ x0 x1 x2 h0 h2 hmax, the_one W₁,
    preweights W₁ x0 x1 x2 h0 h2]
  rfl

end Cert.KernelIdeal.Weights

end
-- ==== Proof.Spec.lean ====
/-
  The functions both programs compute, over literal shapes, on the extended reals.

  x, y : [8, 3, 512, 512]   the two inputs          w : [8, 512, 512]   a weight per (batch, row, column)

  loss        |x - y| at an index, written max (x - y) (-(x - y))
  chanSum     the sum of the loss over the three channels at (batch, row, column)
  term        one summand of the weighted total: loss at (b, k, h, q) times (w (b, h, q) · 1 + 1)
  tiledTotal  the weighted total with the 512 rows taken as 8 tiles of 64: the tiles outermost, inside a tile the
              columns, then the rows of the tile, then the batch, then the channel
  The float word of one is kept as a word: both programs carry the same word, so it is never evaluated.
-/
import Idealize.ShloMosaic.PureOps.Ideal
import Idealize.ShloMosaic.Lib.ValueIdx

noncomputable section

namespace Cert.Spec

open Idealize.ShloMosaic

/-- The inputs' shape. -/
abbrev SX : Shape := ⟨4, ![8, 3, 512, 512]⟩
/-- The weights' shape (and the channel sum's). -/
abbrev SW : Shape := ⟨3, ![8, 512, 512]⟩

/-- The float word 0x3F800000 as an extended real. -/
def one : EReal := Ideal.ofBits .f32 0x3F800000#32

/-- |x - y| at an index. -/
def loss (x y : SX.Idx → EReal) (i : SX.Idx) : EReal := max (x i - y i) (-(x i - y i))

/-- The loss summed over the three channels. -/
def chanSum (x y : SX.Idx → EReal) (b : Fin 8) (h q : Fin 512) : EReal :=
  ∑ k : Fin 3, loss x y (ValueIdx.ix4 b k h q)

/-- One summand of the weighted total. -/
def term (x y : SX.Idx → EReal) (w : SW.Idx → EReal) (b : Fin 8) (k : Fin 3) (h q : Fin 512) : EReal :=
  loss x y (ValueIdx.ix4 b k h q) * (w (ValueIdx.ix3 b h q) * one + one)

/-- Row `r` of tile `t`: the 512 rows are 8 tiles of 64. -/
def tileRow (t : Fin 8) (r : Fin 64) : Fin 512 := ⟨64 * t.val + r.val, by omega⟩

/-- The weighted total, tile by tile. -/
def tiledTotal (x y : SX.Idx → EReal) (w : SW.Idx → EReal) : EReal :=
  ∑ t : Fin 8, ∑ q : Fin 512, ∑ r : Fin 64, ∑ b : Fin 8, ∑ k : Fin 3, term x y w b k (tileRow t r) q

end Cert.Spec

end
-- ==== Proof.ChanRegion.lean ====
/-
  The first region's result array as one function of the two input arrays.

  The region runs eight grid points. Point t reads rows 64·t … 64·t + 63 of the two inputs x, y : [8, 3, 512, 512]
  (a block [8, 3, 64, 512]) and writes the same rows of the result [8, 512, 512] (a block [8, 64, 512]): at
  (b, r, q) of the block the sum over the three channels k of |x − y| at (b, k, r, q) of the input blocks, where
  |a| is max a (−a) on the extended reals. The eight row ranges fill the 512 rows, so after the last point the result
  holds at every (b, h, q) the sum over k of |x − y| at (b, k, h, q).
-/
import proofs.«118710_j35673998361264_2_alg».proof.Proof.Gen.KernelIdeal.Frame
import proofs.«118710_j35673998361264_2_alg».proof.Proof.Spec
import Idealize.ShloMosaic.Lib.Pipeline.Value
import Idealize.ShloMosaic.Lib.ValueIdx
import Idealize.ShloMosaic.PureOps.Ideal.Laws

noncomputable section

namespace Cert.KernelIdeal.ChanRegion

open Cert.KernelIdeal Cert.KernelIdeal.Gen Idealize.ShloMosaic Idealize.ShloMosaic.TcCoe Idealize.ShloMosaic.ValueIdx
open Idealize.ShloMosaic.Pipeline (Dat)

/-! ## One block: the sum over the channel axis at an index -/

/-- The block's entry at (b, r, q) is the sum over the three channels k of max (v0 − v1) (−(v0 − v1)) at (b, k, r, q):
    the reduction over the channel axis is the sum over that axis's coordinate, and the index it inserts the
    coordinate k into (b, r, q) at is (b, k, r, q). -/
theorem blockSum_at (v0 v1 : Vec Ideal S8x3x64x512 .f32) (b : Fin 8) (r : Fin 64) (q : Fin 512) :
    k0_pay1 v0 v1 (ix3 b r q)
      = ∑ k : Fin 3, max (v0 (ix4 b k r q) - v1 (ix4 b k r q)) (-(v0 (ix4 b k r q) - v1 (ix4 b k r q))) := by
  unfold k0_pay1
  refine (Ideal.multiReduction_add_single (absf (subf v0 v1)) 0x00000000#32 reduces_S8x3x64x512_S8x64x512
    (.inl rfl) rfl (ix3 b r q)).trans ?_
  refine Finset.sum_congr rfl fun k _ => ?_
  have e : reduces_S8x3x64x512_S8x64x512.lift (ix3 b r q) k = ix4 b k r q := by
    funext a; apply Fin.ext
    match a with
    | ⟨0, _⟩ => rfl
    | ⟨1, _⟩ => rfl
    | ⟨2, _⟩ => rfl
    | ⟨3, _⟩ => rfl
  rw [e]; rfl

/-- The same entry against two arrays x, y: when the blocks' entries at (b, k, r, q) are the arrays' at (b', k, h, q')
    for every channel k, the block's entry at (b, r, q) is the channel sum of |x − y| at (b', h, q'). -/
theorem blockSum_eq (v0 v1 : Vec Ideal S8x3x64x512 .f32) (x y : Cert.Spec.SX.Idx → EReal)
    (b : Fin 8) (r : Fin 64) (q : Fin 512) (b' : Fin 8) (h q' : Fin 512)
    (h0 : ∀ k : Fin 3, v0 (ix4 b k r q) = x (ix4 b' k h q'))
    (h1 : ∀ k : Fin 3, v1 (ix4 b k r q) = y (ix4 b' k h q')) :
    k0_pay1 v0 v1 (ix3 b r q) = Cert.Spec.chanSum x y b' h q' := by
  rw [blockSum_at]
  unfold Cert.Spec.chanSum Cert.Spec.loss
  exact Finset.sum_congr rfl fun k _ => by rw [h0 k, h1 k]

/-! ## The whole array -/

/-- The result array: at (b, h, q) the channel sum of |x − y|. -/
def chanArr (x y : Cert.Spec.SX.Idx → EReal) : Cert.Spec.SW.Idx → EReal :=
  fun i => Cert.Spec.chanSum x y (i 0) (i 1) (i 2)

/-- A block's entry at j is the result array's at i, when the input blocks at (j₀, k, j₁, j₂) are the input arrays
    at (i₀, k, i₁, i₂) for every channel k. -/
theorem block_entry (v0 v1 : Vec Ideal S8x3x64x512 .f32) (x y : Cert.Spec.SX.Idx → EReal)
    (j : S8x64x512.Idx) (i : Cert.Spec.SW.Idx)
    (h0 : ∀ k : Fin 3, v0 (ix4 (j 0) k (j 1) (j 2)) = x (ix4 (i 0) k (i 1) (i 2)))
    (h1 : ∀ k : Fin 3, v1 (ix4 (j 0) k (j 1) (j 2)) = y (ix4 (i 0) k (i 1) (i 2))) :
    k0_pay1 v0 v1 j = chanArr x y i := by
  obtain ⟨b, r, q, rfl⟩ : ∃ (b : Fin 8) (r : Fin 64) (q : Fin 512), j = ix3 b r q := ⟨j 0, j 1, j 2, eq_ix3 j⟩
  exact blockSum_eq v0 v1 x y b r q (i 0) (i 1) (i 2) h0 h1

/-! ## From the blocks to the array -/

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- Where the blocks sit, decided over the eight points: point t's input blocks are block (0, 0, t, 0) of the
    inputs and its result block is block (0, t, 0) of the result. -/
theorem block_positions : ∀ t : Fin cfg0.N,
    win0_0.index t (0 : Fin 4) = 0 ∧ win0_0.index t (1 : Fin 4) = 0 ∧ win0_0.index t (2 : Fin 4) = t.val
      ∧ win0_0.index t (3 : Fin 4) = 0
    ∧ win0_1.index t (0 : Fin 4) = 0 ∧ win0_1.index t (1 : Fin 4) = 0 ∧ win0_1.index t (2 : Fin 4) = t.val
      ∧ win0_1.index t (3 : Fin 4) = 0
    ∧ win0_2.index t (0 : Fin 3) = 0 ∧ win0_2.index t (1 : Fin 3) = t.val ∧ win0_2.index t (2 : Fin 3) = 0 :=
  (by decide +kernel : ∀ t : Fin grid0.N, _)

variable (V : (c : Dev nD) → (b : Ref sig .tc) → Buf (Elt Ideal) ((c : Thread nD τ).loc b))

/-- What point t writes back is block t of the result array: rows 64·t … 64·t + 63 of the channel sums of the two
    inputs as the region finds them. -/
theorem flushed_eq (c : Dev nD) (t : Fin cfg0.N) :
    (dat0 (F := Ideal) V c).flushed 2 t
      = ((cfg0.win 2).blk t).view.read (Elt Ideal) (chanArr (V c main_arg0) (V c main_arg1)) := by
  show (cfg0.win 2).cut (grid0.coords t) ((dat0 (F := Ideal) V c).after 2 t) = _
  rw [after0_2]
  unfold out0_2
  rw [View.canon_unit_zero zeros3]
  simp only [View.ld_unit_zero (S := S8x3x64x512) zeros4]
  obtain ⟨a0, a1, a2, a3, b0, b1, b2, b3, o0, o1, o2⟩ := block_positions t
  funext j
  show k0_pay1 (iblk0 V c 0 t) (iblk0 V c 1 t) j
    = chanArr (V c main_arg0) (V c main_arg1) (((cfg0.win 2).blk t).view.emb j)
  refine block_entry (iblk0 V c 0 t) (iblk0 V c 1 t) (V c main_arg0) (V c main_arg1) j
    (((cfg0.win 2).blk t).view.emb j) (fun k => ?_) (fun k => ?_)
  · show V c main_arg0 (((cfg0.win 0).blk t).view.emb (ix4 (j 0) k (j 1) (j 2))) = _
    congr 1
    funext a; apply Fin.ext
    match a with
    | ⟨0, _⟩ =>
      show win0_0.index t (0 : Fin 4) * 8 + 1 * (j 0).val = win0_2.index t (0 : Fin 3) * 8 + 1 * (j 0).val
      omega
    | ⟨1, _⟩ =>
      show win0_0.index t (1 : Fin 4) * 3 + 1 * k.val = k.val
      omega
    | ⟨2, _⟩ =>
      show win0_0.index t (2 : Fin 4) * 64 + 1 * (j 1).val = win0_2.index t (1 : Fin 3) * 64 + 1 * (j 1).val
      omega
    | ⟨3, _⟩ =>
      show win0_0.index t (3 : Fin 4) * 512 + 1 * (j 2).val = win0_2.index t (2 : Fin 3) * 512 + 1 * (j 2).val
      omega
  · show V c main_arg1 (((cfg0.win 1).blk t).view.emb (ix4 (j 0) k (j 1) (j 2))) = _
    congr 1
    funext a; apply Fin.ext
    match a with
    | ⟨0, _⟩ =>
      show win0_1.index t (0 : Fin 4) * 8 + 1 * (j 0).val = win0_2.index t (0 : Fin 3) * 8 + 1 * (j 0).val
      omega
    | ⟨1, _⟩ =>
      show win0_1.index t (1 : Fin 4) * 3 + 1 * k.val = k.val
      omega
    | ⟨2, _⟩ =>
      show win0_1.index t (2 : Fin 4) * 64 + 1 * (j 1).val = win0_2.index t (1 : Fin 3) * 64 + 1 * (j 1).val
      omega
    | ⟨3, _⟩ =>
      show win0_1.index t (3 : Fin 4) * 512 + 1 * (j 2).val = win0_2.index t (2 : Fin 3) * 512 + 1 * (j 2).val
      omega

/-- An index of the result is in point t's block exactly when each coordinate is in the block's range on its axis. -/
theorem mem_block (t : Fin cfg0.N) (i : S8x512x512.Idx) :
    i ∈ ((cfg0.win 2).blk t).view.set ↔ ∀ a : Fin 3, win0_2.index t a * S8x64x512.size a ≤ (i a).val
      ∧ (i a).val < win0_2.index t a * S8x64x512.size a + S8x64x512.size a := by
  show i ∈ ((View.whole main_v0).slice (win0_2.rect t)).set ↔ _
  rw [View.set_slice_whole, Rect.mem_set_unit]
  exact Iff.rfl

/-- Every index of the result is in some point's block: row h is in the block of point h / 64. -/
theorem covered (i : S8x512x512.Idx) :
    ∃ t : Fin cfg0.N, (cfg0.win 2).flush t = true ∧ i ∈ ((cfg0.win 2).blk t).view.set := by
  have hi0 : (i 0).val < 8 := (i 0).isLt
  have hi1 : (i 1).val < 512 := (i 1).isLt
  have hi2 : (i 2).val < 512 := (i 2).isLt
  obtain ⟨t, ht⟩ : ∃ t : Fin cfg0.N, t.val = (i 1).val / 64 :=
    ⟨⟨(i 1).val / 64, by rw [show cfg0.N = 8 from N_0]; omega⟩, rfl⟩
  obtain ⟨-, -, -, -, -, -, -, -, o0, o1, o2⟩ := block_positions t
  refine ⟨t, flush0_2 t, ?_⟩
  rw [mem_block]
  intro a
  match a with
  | ⟨0, _⟩ =>
    show win0_2.index t (0 : Fin 3) * 8 ≤ (i 0).val ∧ (i 0).val < win0_2.index t (0 : Fin 3) * 8 + 8
    omega
  | ⟨1, _⟩ =>
    show win0_2.index t (1 : Fin 3) * 64 ≤ (i 1).val ∧ (i 1).val < win0_2.index t (1 : Fin 3) * 64 + 64
    omega
  | ⟨2, _⟩ =>
    show win0_2.index t (2 : Fin 3) * 512 ≤ (i 2).val ∧ (i 2).val < win0_2.index t (2 : Fin 3) * 512 + 512
    omega

/-- So after the eight points the result array is the channel sums of the two inputs as the region finds them. -/
theorem result_array (c : Dev nD) :
    (dat0 (F := Ideal) V c).arrAt 2 cfg0.N = chanArr (V c main_arg0) (V c main_arg1) :=
  (dat0 (F := Ideal) V c).arrAt_eq_of_cover 2 (chanArr (V c main_arg0) (V c main_arg1))
    (fun t _ => flushed_eq V c t) covered

/-- The result at (b, h, q): the sum over the three channels k of |x − y| at (b, k, h, q). -/
theorem chan_region (c : Dev nD) (b : Fin 8) (h q : Fin 512) :
    (dat0 (F := Ideal) V c).arrAt 2 cfg0.N (ValueIdx.ix3 b h q)
      = Cert.Spec.chanSum (V c main_arg0) (V c main_arg1) b h q := by
  rw [result_array V c]
  rfl

end Cert.KernelIdeal.ChanRegion

end
-- ==== Proof.KernelEntry.lean ====
/-
  The first region joined to the run and to the reference.

  After the first region the result buffer holds the channel sums of |x − y| of the two float arguments as launched;
  the reference's third stage is the same array: zero plus the sum over the three channels of the absolute value of
  the difference, and on the extended reals both absolute values are max a (−a). The mask argument is not among the
  first region's arrays, so it leaves the region as launched. No host line between the two regions writes a float
  argument and the regions only read them, so the second region finds both as launched.
-/
import proofs.«118710_j35673998361264_2_alg».proof.Proof.Gen.KernelIdeal.Frame
import proofs.«118710_j35673998361264_2_alg».proof.Proof.ChanRegion
import proofs.«118710_j35673998361264_2_alg».proof.Proof.RefRead
import Idealize.ShloMosaic.Lib.ValueIdx
import Idealize.ShloMosaic.PureOps.Ideal.Laws

noncomputable section

namespace Cert.KernelIdeal.Entry

open Cert.KernelIdeal Cert.KernelIdeal.Gen Idealize.ShloMosaic Idealize.ShloMosaic.TcCoe Idealize.ShloMosaic.ValueIdx
open Cert.ReferenceIdeal.ReadP

variable (m : (ℓ : Loc nD τ sig) → Buf (Elt Ideal) ℓ) (ρ : Dev nD → PrngReg)

/-! ## The first region's result is the reference's channel-sum stage -/

/-- The reference's third stage at an index: zero plus the sum over the three channels of the host's absolute value
    of x − y. The zero word is 0, the index the stage reads channel k at is (i₀, k, i₁, i₂), and the host's absolute
    value on the extended reals is max a (−a): the channel sum of |x − y|. -/
theorem ref_stage_eq (x y : Cert.Spec.SX.Idx → EReal) :
    val_main_v2 (F := Ideal) x y = ChanRegion.chanArr x y := by
  funext i
  rw [val_main_v2_apply]
  show Ideal.ofBits .f32 0x00000000#32 + ∑ k : Fin 3, val_main_v1 (F := Ideal) x y (idx_main_v2 i k)
    = Cert.Spec.chanSum x y (i 0) (i 1) (i 2)
  rw [Ideal.ofBits_zero_f32, zero_add]
  unfold Cert.Spec.chanSum Cert.Spec.loss
  refine Finset.sum_congr rfl fun k _ => ?_
  have e : idx_main_v2 i k = ix4 (i 0) k (i 1) (i 2) := funext fun a => by
    match a with
    | ⟨0, _⟩ => rfl
    | ⟨1, _⟩ => rfl
    | ⟨2, _⟩ => rfl
    | ⟨3, _⟩ => rfl
  rw [e]
  rfl

/-- After the first region the result buffer holds the reference's channel-sum stage of the two float arguments as
    launched: the region's result array is the channel sums of the arrays it finds, and it finds the launch's. -/
theorem chan_eq (c : Dev nD) :
    W1 (F := Ideal) m ρ c (Proc.devRef .tc main_v0)
      = val_main_v2 (F := Ideal) (m ((c : Thread nD τ).loc main_arg0)) (m ((c : Thread nD τ).loc main_arg1)) := by
  refine (W1_arr m ρ c 2).trans ?_
  rw [ChanRegion.result_array (V0 m ρ) c]
  exact (ref_stage_eq (m ((c : Thread nD τ).loc main_arg0)) (m ((c : Thread nD τ).loc main_arg1))).symm

/-! ## The mask passes the first region -/

/-- The first region's arrays are the two float arguments and the result; the mask is none of them, so its buffer
    is as launched when the region ends. -/
theorem mask_kept (c : Dev nD) :
    W1 (F := Ideal) m ρ c (Proc.devRef .tc main_arg2) = m ((c : Thread nD τ).loc main_arg2) :=
  (W1_of_ne m ρ c main_arg2 (by decide)).trans rfl

/-! ## The float arguments as the second region finds them -/

/-- The first float argument at the second region's entry is as launched: the second region only reads it and the
    host lines after it do not write it, so its contents there are its contents at the return, which are the launch's. -/
theorem entry_arg0 (c : Dev nD) : V7 (F := Ideal) m ρ c main_arg0 = m ((c : Thread nD τ).loc main_arg0) :=
  calc V7 (F := Ideal) m ρ c main_arg0
    _ = W8 m ρ c (Proc.devRef .tc main_arg0) :=
        ((W8_arr m ρ c 0).trans (((dat1 (V7 m ρ) c).arrAt_in 0 rfl _).trans (A_eq1 (V7 m ρ) c 0))).symm
    _ = W9 m ρ c (Proc.devRef .tc main_arg0) :=
        (StableHlo.after_of_forall_not_mem (b := Proc.devRef .tc main_arg0) _ _ (List.forall_iff_forall_mem.mp (by
          simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
          repeat' apply And.intro
          all_goals exact StableHlo.devRef_ne_of_ne (by decide)))).symm
    _ = m ((c : Thread nD τ).loc main_arg0) := W9_main_arg0 m ρ c

/-- The second float argument likewise. -/
theorem entry_arg1 (c : Dev nD) : V7 (F := Ideal) m ρ c main_arg1 = m ((c : Thread nD τ).loc main_arg1) :=
  calc V7 (F := Ideal) m ρ c main_arg1
    _ = W8 m ρ c (Proc.devRef .tc main_arg1) :=
        ((W8_arr m ρ c 1).trans (((dat1 (V7 m ρ) c).arrAt_in 1 rfl _).trans (A_eq1 (V7 m ρ) c 1))).symm
    _ = W9 m ρ c (Proc.devRef .tc main_arg1) :=
        (StableHlo.after_of_forall_not_mem (b := Proc.devRef .tc main_arg1) _ _ (List.forall_iff_forall_mem.mp (by
          simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
          repeat' apply And.intro
          all_goals exact StableHlo.devRef_ne_of_ne (by decide)))).symm
    _ = m ((c : Thread nD τ).loc main_arg1) := W9_main_arg1 m ρ c

end Cert.KernelIdeal.Entry

end
-- ==== Proof.TotalPieces.lean ====
/-
  What the second region's body leaves in its [1,1] output block, case by case.

  At the first grid point the body stores the zero block, reads it back, and stores over it the
  sum payload taken over that zero; at every later point it stores the sum payload taken over
  the block's running contents.  Both are read off the stores the run found: the last store
  covers the whole block, so the block holds that store's value, and every load goes through
  the whole staging buffer, so it reads the buffer's contents.
-/
import proofs.«118710_j35673998361264_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.TotalRegion

open Cert.KernelIdeal Cert.KernelIdeal.Gen

variable {F : FTy → Type} [FloatOps F]

/-- Zero offsets at ranks 2, 3 and 4, as constant functions. -/
theorem off2 : (![0, 0] : Fin 2 → Nat) = fun _ => 0 := funext fun a => by fin_cases a <;> rfl
theorem off3 : (![0, 0, 0] : Fin 3 → Nat) = fun _ => 0 := funext fun a => by fin_cases a <;> rfl
theorem off4 : (![0, 0, 0, 0] : Fin 4 → Nat) = fun _ => 0 := funext fun a => by fin_cases a <;> rfl

/-- A later point (not the first): over running contents `xo`, the block ends at the sum payload of the
    three input blocks over `xo`. -/
theorem out_later (c : Dev nD) (i : grid1.Coords)
    (a1 : Memref sig .tc .vmem S8x3x64x512 .f32) (h1 : a1.IsWhole)
    (a2 : Memref sig .tc .vmem S8x3x64x512 .f32) (h2 : a2.IsWhole)
    (a3 : Memref sig .tc .vmem S8x64x512 .f32) (h3 : a3.IsWhole)
    (a4 : Memref sig .tc .vmem S1x1 .f32) (h4 : a4.IsWhole) (hc : ¬cond1_0 i)
    (x0 x1 : Vec F S8x3x64x512 .f32) (x2 : Vec F S8x64x512 .f32) (xo : Vec F S1x1 .f32) :
    out1_B_3 c i a1 h1 a2 h2 a3 h3 a4 h4 hc x0 x1 x2 xo = k1_pay2 x0 x1 x2 xo := by
  unfold out1_B_3
  rw [View.read_writes_eq_canon _ _ _ (cover1_B_3 c i a1 h1 a2 h2 a3 h3 a4 h4 hc x0 x1 x2 xo)]
  unfold kernelRun1_B
  dsimp only
  rw [View.canon_unit_zero off2]
  simp only [View.readAt_eq_ld, h1.read_unread, h2.read_unread, h3.read_unread, h4.read_unread,
    View.ld_unit_zero (S := S8x3x64x512) off4, View.ld_unit_zero (S := S8x64x512) off3,
    View.ld_unit_zero (S := S1x1) off2]

/-- The first point: the block ends at the sum payload of the three input blocks over the zero block. -/
theorem out_first (c : Dev nD) (i : grid1.Coords)
    (a1 : Memref sig .tc .vmem S8x3x64x512 .f32) (h1 : a1.IsWhole)
    (a2 : Memref sig .tc .vmem S8x3x64x512 .f32) (h2 : a2.IsWhole)
    (a3 : Memref sig .tc .vmem S8x64x512 .f32) (h3 : a3.IsWhole)
    (a4 : Memref sig .tc .vmem S1x1 .f32) (h4 : a4.IsWhole) (hc : cond1_0 i)
    (x0 x1 : Vec F S8x3x64x512 .f32) (x2 : Vec F S8x64x512 .f32) :
    out1_A_3 c i a1 h1 a2 h2 a3 h3 a4 h4 hc x0 x1 x2 = k1_pay2 x0 x1 x2 (k1_pay1 (F := F)) := by
  unfold out1_A_3
  rw [View.read_writes_eq_canon _ _ _ (cover1_A_3 c i a1 h1 a2 h2 a3 h3 a4 h4 hc x0 x1 x2)]
  unfold kernelRun1_A
  dsimp only
  sl_unfold_words
  rw [View.canon_cons_unit_zero (S := S1x1) off2, View.readCov_unit_zero (S := S1x1) _ off2]
  simp only [View.readAt_eq_ld, h1.read_unread, h2.read_unread, h3.read_unread,
    View.ld_unit_zero (S := S8x3x64x512) off4, View.ld_unit_zero (S := S8x64x512) off3]

end Cert.KernelIdeal.TotalRegion

end
-- ==== Proof.TotalPayload.lean ====
/-
  The second region's sum payload on the extended reals, read at the one index of its [1,1] value.

  The payload adds to the block's running contents the sum, over the columns q, the 64 rows r of the tile,
  the batch b and the channel k, of |x - y| at (b, k, r, q) times (w (b, r, q) · 1 + 1), where x, y are the
  two [8,3,64,512] input blocks and w the [8,64,512] weight block.  Each of the four reductions runs along
  one axis, so it is the sum over that axis's coordinates; the two casts between [512] and [1,512], [1] and
  [1,1] only add a unit axis; the weights are viewed [8,1,64,512] (same row-major position) and repeated
  along the channel axis.
-/
import proofs.«118710_j35673998361264_2_alg».proof.Proof.Gen.KernelIdeal.Frame
import proofs.«118710_j35673998361264_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.TotalRegion

open Cert.KernelIdeal Cert.KernelIdeal.Gen

/-! ## The index a one-axis sum inserts its coordinate into -/

theorem lift_chan (h : S8x3x64x512.Reduces [1] S8x64x512) (b : Fin 8) (r : Fin 64) (q : Fin 512) (k : Fin 3) :
    h.lift (ix3 b r q) k = ix4 b k r q := by
  funext a; apply Fin.ext
  match a with
  | ⟨0, _⟩ => rfl
  | ⟨1, _⟩ => rfl
  | ⟨2, _⟩ => rfl
  | ⟨3, _⟩ => rfl

theorem lift_batch (h : S8x64x512.Reduces [0] S64x512) (r : Fin 64) (q : Fin 512) (b : Fin 8) :
    h.lift (ix2 r q) b = ix3 b r q := by
  funext a; apply Fin.ext
  match a with
  | ⟨0, _⟩ => rfl
  | ⟨1, _⟩ => rfl
  | ⟨2, _⟩ => rfl

theorem lift_row (h : S64x512.Reduces [0] S512) (q : Fin 512) (r : Fin 64) :
    h.lift (ix1 q) r = ix2 r q := by
  funext a; apply Fin.ext
  match a with
  | ⟨0, _⟩ => rfl
  | ⟨1, _⟩ => rfl

theorem lift_col (h : S1x512.Reduces [1] S1) (u : Fin 1) (q : Fin 512) :
    h.lift (ix1 u) q = ix2 u q := by
  funext a; apply Fin.ext
  match a with
  | ⟨0, _⟩ => rfl
  | ⟨1, _⟩ => rfl

/-! ## The four sums, each along one axis -/

/-- The sum over the channel axis of an [8,3,64,512] value, at (b, r, q). -/
theorem sum_chan (v : FVec Ideal S8x3x64x512 .f32) (h : S8x3x64x512.Reduces [1] S8x64x512) (hφ : FKind.Formats .f32)
    (hacc : (0x00000000#32 : BitVec 32) = FKind.add.neutral .f32 hφ) (b : Fin 8) (r : Fin 64) (q : Fin 512) :
    multiReduction (F := Ideal) .add [1] S8x64x512 v 0x00000000#32 h hφ hacc (ix3 b r q)
      = ∑ k : Fin 3, v (ix4 b k r q) :=
  (Ideal.multiReduction_add_single v _ h hφ hacc (ix3 b r q)).trans
    (Finset.sum_congr rfl fun k _ => congrArg v (lift_chan h b r q k))

/-- The sum over the batch axis of an [8,64,512] value, at (r, q). -/
theorem sum_batch (v : FVec Ideal S8x64x512 .f32) (h : S8x64x512.Reduces [0] S64x512) (hφ : FKind.Formats .f32)
    (hacc : (0x00000000#32 : BitVec 32) = FKind.add.neutral .f32 hφ) (r : Fin 64) (q : Fin 512) :
    multiReduction (F := Ideal) .add [0] S64x512 v 0x00000000#32 h hφ hacc (ix2 r q)
      = ∑ b : Fin 8, v (ix3 b r q) :=
  (Ideal.multiReduction_add_single v _ h hφ hacc (ix2 r q)).trans
    (Finset.sum_congr rfl fun b _ => congrArg v (lift_batch h r q b))

/-- The sum over the row axis of a [64,512] value, at q. -/
theorem sum_row (v : FVec Ideal S64x512 .f32) (h : S64x512.Reduces [0] S512) (hφ : FKind.Formats .f32)
    (hacc : (0x00000000#32 : BitVec 32) = FKind.add.neutral .f32 hφ) (q : Fin 512) :
    multiReduction (F := Ideal) .add [0] S512 v 0x00000000#32 h hφ hacc (ix1 q)
      = ∑ r : Fin 64, v (ix2 r q) :=
  (Ideal.multiReduction_add_single v _ h hφ hacc (ix1 q)).trans
    (Finset.sum_congr rfl fun r _ => congrArg v (lift_row h q r))

/-- The sum over the column axis of a [1,512] value, at its one index. -/
theorem sum_col (v : FVec Ideal S1x512 .f32) (h : S1x512.Reduces [1] S1) (hφ : FKind.Formats .f32)
    (hacc : (0x00000000#32 : BitVec 32) = FKind.add.neutral .f32 hφ) (u : Fin 1) :
    multiReduction (F := Ideal) .add [1] S1 v 0x00000000#32 h hφ hacc (ix1 u)
      = ∑ q : Fin 512, v (ix2 u q) :=
  (Ideal.multiReduction_add_single v _ h hφ hacc (ix1 u)).trans
    (Finset.sum_congr rfl fun q _ => congrArg v (lift_col h u q))

/-! ## The weights' factor and one summand -/

/-- The weight block viewed [8,1,64,512]: same row-major position. -/
theorem weights_view (x2 : FVec Ideal S8x64x512 .f32) (h1 : S8x64x512.ShapeCasts S8x64x512)
    (h2 : S8x64x512.ShapeCasts S8x1x64x512) (b : Fin 8) (u : Fin 1) (r : Fin 64) (q : Fin 512) :
    shapeCast S8x1x64x512 (shapeCast S8x64x512 x2 h1) h2 (ix4 b u r q) = x2 (ix3 b r q) :=
  (shapeCast_apply (shapeCast S8x64x512 x2 h1) h2 (ix4 b u r q) (ix3 b r q) (by
    have hu : u.val = 0 := by omega
    rw [Shape.rowMajor_val_three, Shape.rowMajor_val_four]
    show (b.val * 64 + r.val) * 512 + q.val = ((b.val * 1 + u.val) * 64 + r.val) * 512 + q.val
    rw [hu, Nat.mul_one, Nat.add_zero])).trans
    (congrFun (shapeCast_self x2 h1) (ix3 b r q))

/-- The per-entry factor w · 1 + 1, repeated along the channel axis. -/
theorem factor_apply (x2 : FVec Ideal S8x64x512 .f32) (h1 : S8x64x512.ShapeCasts S8x64x512)
    (h2 : S8x64x512.ShapeCasts S8x1x64x512) (h3 : S8x1x64x512.Broadcasts S8x3x64x512)
    (b : Fin 8) (k : Fin 3) (r : Fin 64) (q : Fin 512) :
    broadcastTo S8x3x64x512
        (addf (mulf (shapeCast S8x1x64x512 (shapeCast S8x64x512 x2 h1) h2)
            (broadcast S8x1x64x512 (Scalar.ofBits (F := Ideal) .f32 0x3F800000#32)))
          (broadcast S8x1x64x512 (Scalar.ofBits (F := Ideal) .f32 0x3F800000#32))) h3 (ix4 b k r q)
      = x2 (ix3 b r q) * Cert.Spec.one + Cert.Spec.one :=
  (broadcastTo_apply _ h3 (ix4 b k r q) (ix4 b (0 : Fin 1) r q) (fun a => by
    match a with
    | ⟨0, _⟩ => rfl
    | ⟨1, _⟩ => rfl
    | ⟨2, _⟩ => rfl
    | ⟨3, _⟩ => rfl)).trans
    (congrArg (fun z : EReal => z * Cert.Spec.one + Cert.Spec.one) (weights_view x2 h1 h2 b 0 r q))

/-! ## The payload at its one index -/

/-- The zero block the first point stores, at its one index: the zero word is the extended real 0. -/
theorem zero_block_apply (j : S1x1.Idx) : k1_pay1 (F := Ideal) j = 0 :=
  Ideal.ofBits_zero_f32

/-- The sum payload at its one index: the running contents there plus the sum over the columns, the tile's rows,
    the batch and the channel of |x - y| · (w · 1 + 1), the blocks' entries named by `X`, `Y`, `W`. -/
theorem pay_sum (x0 x1 : FVec Ideal S8x3x64x512 .f32) (x2 : FVec Ideal S8x64x512 .f32) (xo : FVec Ideal S1x1 .f32)
    (X Y : Fin 8 → Fin 3 → Fin 64 → Fin 512 → EReal) (W : Fin 8 → Fin 64 → Fin 512 → EReal)
    (hx : ∀ b k r q, x0 (ix4 b k r q) = X b k r q) (hy : ∀ b k r q, x1 (ix4 b k r q) = Y b k r q)
    (hw : ∀ b r q, x2 (ix3 b r q) = W b r q) (u v : Fin 1) :
    k1_pay2 (F := Ideal) x0 x1 x2 xo (ix2 u v)
      = xo (ix2 u v) + ∑ q : Fin 512, ∑ r : Fin 64, ∑ b : Fin 8, ∑ k : Fin 3,
          max (X b k r q - Y b k r q) (-(X b k r q - Y b k r q)) * (W b r q * Cert.Spec.one + Cert.Spec.one) := by
  unfold k1_pay2
  refine (addf_apply _ _ _).trans ?_
  refine congrArg₂ (· + ·) (congrFun (shapeCast_self xo _) (ix2 u v)) ?_
  refine (shapeCast_a_1a_apply _ _ u v).trans ?_
  refine (sum_col _ _ _ _ v).trans (Finset.sum_congr rfl fun q _ => ?_)
  refine (shapeCast_a_1a_apply _ _ v q).trans ?_
  refine (sum_row _ _ _ _ q).trans (Finset.sum_congr rfl fun r _ => ?_)
  refine (sum_batch _ _ _ _ r q).trans (Finset.sum_congr rfl fun b _ => ?_)
  refine (sum_chan _ _ _ _ b r q).trans (Finset.sum_congr rfl fun k _ => ?_)
  refine (mulf_apply _ _ _).trans ?_
  refine congrArg₂ (· * ·) ?_ ((factor_apply x2 _ _ _ b k r q).trans (by rw [hw b r q]))
  show max (x0 (ix4 b k r q) - x1 (ix4 b k r q)) (-(x0 (ix4 b k r q) - x1 (ix4 b k r q))) = _
  rw [hx b k r q, hy b k r q]

end Cert.KernelIdeal.TotalRegion

end
-- ==== Proof.TotalRegion.lean ====
/-
  The second region's [1,1] output after its eight grid points is the tile-by-tile weighted total.

  The region walks the 512 rows in 8 tiles of 64.  At each point it has the two input blocks and the weight block
  of that tile; its output block is the same [1,1] block at every point, carried from point to point and written
  back once, after the last point.  The first point starts the block from zero and adds the first tile's share;
  each later point adds its tile's share to what the point before left.  So after point n the block holds the
  shares of tiles 0 … n, and the result array — one block, the whole array — ends holding all eight.
-/
import proofs.«118710_j35673998361264_2_alg».proof.Proof.Gen.KernelIdeal.Frame
import proofs.«118710_j35673998361264_2_alg».proof.Proof.Spec
import proofs.«118710_j35673998361264_2_alg».proof.Proof.TotalPieces
import proofs.«118710_j35673998361264_2_alg».proof.Proof.TotalPayload
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.KernelIdeal.TotalRegion

open Cert.KernelIdeal Cert.KernelIdeal.Gen

variable (V : (c : Dev nD) → (b : Ref sig .tc) → Buf (Elt Ideal) ((c : Thread nD τ).loc b))

/-! ## Where the windows' blocks sit

At point `t` the two input blocks are rows 64 t … 64 t + 63 of their [8,3,512,512] arrays, every batch, channel and
column; the weight block is the same rows of the [8,512,512] weights. -/

/-- The block indices of the three input windows at every grid point, decided over the grid. -/
theorem block_index : ∀ t : Fin cfg1.N,
    (win1_0.index t 0 = 0 ∧ win1_0.index t 1 = 0 ∧ win1_0.index t 2 = t.val ∧ win1_0.index t 3 = 0)
    ∧ (win1_1.index t 0 = 0 ∧ win1_1.index t 1 = 0 ∧ win1_1.index t 2 = t.val ∧ win1_1.index t 3 = 0)
    ∧ (win1_2.index t 0 = 0 ∧ win1_2.index t 1 = t.val ∧ win1_2.index t 2 = 0) :=
  (by decide +kernel : ∀ t : Fin grid1.N, _)

/-- The first input's block at point `t`, at (b, k, r, q): the array at (b, k, 64 t + r, q). -/
theorem x_block (c : Dev nD) (t : Fin cfg1.N) (ht : t.val < 8) (b : Fin 8) (k : Fin 3) (r : Fin 64) (q : Fin 512) :
    (iblk1 (F := Ideal) V c 0 t : FVec Ideal S8x3x64x512 .f32) (ix4 b k r q)
      = (V c main_arg0 : Cert.Spec.SX.Idx → EReal) (ix4 b k (Cert.Spec.tileRow ⟨t.val, ht⟩ r) q) := by
  unfold iblk1
  rw [View.read_apply]
  show V c main_arg0 _ = V c main_arg0 _
  congr 1
  funext a
  apply Fin.ext
  have hi := (block_index t).1
  match a with
  | ⟨0, _⟩ => show win1_0.index t 0 * 8 + 1 * b.val = b.val; rw [hi.1]; omega
  | ⟨1, _⟩ => show win1_0.index t 1 * 3 + 1 * k.val = k.val; rw [hi.2.1]; omega
  | ⟨2, _⟩ => show win1_0.index t 2 * 64 + 1 * r.val = 64 * t.val + r.val; rw [hi.2.2.1]; omega
  | ⟨3, _⟩ => show win1_0.index t 3 * 512 + 1 * q.val = q.val; rw [hi.2.2.2]; omega

/-- The second input's block likewise. -/
theorem y_block (c : Dev nD) (t : Fin cfg1.N) (ht : t.val < 8) (b : Fin 8) (k : Fin 3) (r : Fin 64) (q : Fin 512) :
    (iblk1 (F := Ideal) V c 1 t : FVec Ideal S8x3x64x512 .f32) (ix4 b k r q)
      = (V c main_arg1 : Cert.Spec.SX.Idx → EReal) (ix4 b k (Cert.Spec.tileRow ⟨t.val, ht⟩ r) q) := by
  unfold iblk1
  rw [View.read_apply]
  show V c main_arg1 _ = V c main_arg1 _
  congr 1
  funext a
  apply Fin.ext
  have hi := (block_index t).2.1
  match a with
  | ⟨0, _⟩ => show win1_1.index t 0 * 8 + 1 * b.val = b.val; rw [hi.1]; omega
  | ⟨1, _⟩ => show win1_1.index t 1 * 3 + 1 * k.val = k.val; rw [hi.2.1]; omega
  | ⟨2, _⟩ => show win1_1.index t 2 * 64 + 1 * r.val = 64 * t.val + r.val; rw [hi.2.2.1]; omega
  | ⟨3, _⟩ => show win1_1.index t 3 * 512 + 1 * q.val = q.val; rw [hi.2.2.2]; omega

/-- The weight block at point `t`, at (b, r, q): the weights at (b, 64 t + r, q). -/
theorem w_block (c : Dev nD) (t : Fin cfg1.N) (ht : t.val < 8) (b : Fin 8) (r : Fin 64) (q : Fin 512) :
    (iblk1 (F := Ideal) V c 2 t : FVec Ideal S8x64x512 .f32) (ix3 b r q)
      = (V c main_v37 : Cert.Spec.SW.Idx → EReal) (ix3 b (Cert.Spec.tileRow ⟨t.val, ht⟩ r) q) := by
  unfold iblk1
  rw [View.read_apply]
  show V c main_v37 _ = V c main_v37 _
  congr 1
  funext a
  apply Fin.ext
  have hi := (block_index t).2.2
  match a with
  | ⟨0, _⟩ => show win1_2.index t 0 * 8 + 1 * b.val = b.val; rw [hi.1]; omega
  | ⟨1, _⟩ => show win1_2.index t 1 * 64 + 1 * r.val = 64 * t.val + r.val; rw [hi.2.1]; omega
  | ⟨2, _⟩ => show win1_2.index t 2 * 512 + 1 * q.val = q.val; rw [hi.2.2]; omega

/-! ## One tile's share, and what a point adds -/

/-- Tile `t`'s share of the total: the sum over its columns, its 64 rows, the batch and the channel. -/
def tileSum (x y : Cert.Spec.SX.Idx → EReal) (w : Cert.Spec.SW.Idx → EReal) (t : Fin 8) : EReal :=
  ∑ q : Fin 512, ∑ r : Fin 64, ∑ b : Fin 8, ∑ k : Fin 3, Cert.Spec.term x y w b k (Cert.Spec.tileRow t r) q

/-- The same over the naturals, zero from the eighth on: what a sum over an initial range of points adds up. -/
def tileSumAt (x y : Cert.Spec.SX.Idx → EReal) (w : Cert.Spec.SW.Idx → EReal) (t : ℕ) : EReal :=
  if h : t < 8 then tileSum x y w ⟨t, h⟩ else 0

/-- The sum payload at point `t`, over running contents `xo`: `xo` plus tile `t`'s share. -/
theorem point_value (c : Dev nD) (t : Fin cfg1.N) (ht : t.val < 8) (xo : FVec Ideal S1x1 .f32) (j : S1x1.Idx) :
    k1_pay2 (F := Ideal) (iblk1 V c 0 t) (iblk1 V c 1 t) (iblk1 V c 2 t) xo j
      = xo j + tileSum (V c main_arg0) (V c main_arg1) (V c main_v37) ⟨t.val, ht⟩ := by
  obtain ⟨u, v, rfl⟩ : ∃ (u v : Fin 1), j = ix2 u v := ⟨j 0, j 1, eq_ix2 j⟩
  refine (pay_sum (iblk1 V c 0 t) (iblk1 V c 1 t) (iblk1 V c 2 t) xo
    (fun b k r q => (V c main_arg0 : Cert.Spec.SX.Idx → EReal) (ix4 b k (Cert.Spec.tileRow ⟨t.val, ht⟩ r) q))
    (fun b k r q => (V c main_arg1 : Cert.Spec.SX.Idx → EReal) (ix4 b k (Cert.Spec.tileRow ⟨t.val, ht⟩ r) q))
    (fun b r q => (V c main_v37 : Cert.Spec.SW.Idx → EReal) (ix3 b (Cert.Spec.tileRow ⟨t.val, ht⟩ r) q))
    (x_block V c t ht) (y_block V c t ht) (w_block V c t ht) u v).trans ?_
  unfold tileSum Cert.Spec.term Cert.Spec.loss
  rfl

/-! ## The running contents of the output block -/

/-- After point `n` the output block holds the shares of tiles 0 … n: by induction on the point, the first point
    starting from the zero block, every later one adding its tile's share to what the point before left. -/
theorem running (c : Dev nD) : ∀ (n : ℕ) (h : n < cfg1.N) (j : S1x1.Idx),
    outsAt1 (F := Ideal) V c n h j
      = ∑ t ∈ Finset.range (n + 1), tileSumAt (V c main_arg0) (V c main_arg1) (V c main_v37) t
  | 0, h, j => by
    have h8 : (0 : ℕ) < 8 := by decide
    refine (congrFun ((outsAt1_A V c ⟨0, h⟩ rfl).trans
      (out_first (F := Ideal) c (grid1.coords ⟨0, h⟩) (ms1_0 ⟨0, h⟩) (hs1_0 ⟨0, h⟩) (ms1_1 ⟨0, h⟩) (hs1_1 ⟨0, h⟩)
        (ms1_2 ⟨0, h⟩) (hs1_2 ⟨0, h⟩) (ms1_3 ⟨0, h⟩) (hs1_3 ⟨0, h⟩) ((hcond1_0 ⟨0, h⟩).mpr rfl)
        (iblk1 V c 0 ⟨0, h⟩) (iblk1 V c 1 ⟨0, h⟩) (iblk1 V c 2 ⟨0, h⟩))) j).trans ?_
    refine (point_value V c ⟨0, h⟩ h8 (k1_pay1 (F := Ideal)) j).trans ?_
    rw [zero_block_apply, zero_add, Finset.sum_range_one]
    unfold tileSumAt
    rw [dif_pos h8]
  | n + 1, h, j => by
    have hN : cfg1.N = 8 := N_1
    have h8 : n + 1 < 8 := hN ▸ h
    have hB : ¬(⟨n + 1, h⟩ : Fin cfg1.N).val % 8 = 0 := by dsimp only; omega
    rw [Finset.sum_range_succ, ← running c n (Nat.lt_of_succ_lt h) j]
    refine (congrFun ((outsAt1_B V c ⟨n + 1, h⟩ hB).trans
      (out_later (F := Ideal) c (grid1.coords ⟨n + 1, h⟩) (ms1_0 ⟨n + 1, h⟩) (hs1_0 ⟨n + 1, h⟩) (ms1_1 ⟨n + 1, h⟩)
        (hs1_1 ⟨n + 1, h⟩) (ms1_2 ⟨n + 1, h⟩) (hs1_2 ⟨n + 1, h⟩) (ms1_3 ⟨n + 1, h⟩) (hs1_3 ⟨n + 1, h⟩)
        (fun hh => hB ((hcond1_0 ⟨n + 1, h⟩).mp hh))
        (iblk1 V c 0 ⟨n + 1, h⟩) (iblk1 V c 1 ⟨n + 1, h⟩) (iblk1 V c 2 ⟨n + 1, h⟩)
        (outsAt1 V c n (Nat.lt_of_succ_lt h)))) j).trans ?_
    refine (point_value V c ⟨n + 1, h⟩ h8 (outsAt1 V c n (Nat.lt_of_succ_lt h)) j).trans ?_
    unfold tileSumAt
    rw [dif_pos h8]

/-! ## The result array after the region -/

/-- The eight grid points are the eight tiles. -/
theorem lastPoint : 7 < cfg1.N := by rw [show cfg1.N = 8 from N_1]; decide

/-- What the last point leaves in the output block, as contents of the [1,1] result array (its one block is the
    whole array). -/
abbrev lastBlock (c : Dev nD) : Buf (Elt Ideal) ((c : Thread nD τ).loc main_v38) :=
  outsAt1 (F := Ideal) V c 7 lastPoint

/-- The one write-back, at the last point, writes it: block (0, 0) of the [1,1] array, read at zero offsets, is the
    array. -/
theorem flushed_last (c : Dev nD) (t : Fin cfg1.N) (hf : (cfg1.win 3).flush t = true) :
    (dat1 (F := Ideal) V c).flushed 3 t = ((cfg1.win 3).blk t).view.read (Elt Ideal) (lastBlock V c) := by
  have hN : cfg1.N = 8 := N_1
  have h7 : t.val = 7 := by have := (flush1_3 t).mp hf; have := t.isLt; omega
  obtain rfl : t = t1_7 := Fin.ext h7
  show (cfg1.win 3).cut (grid1.coords t1_7) ((dat1 (F := Ideal) V c).after 3 t1_7) = _
  rw [after1_3]
  have hz' : (fun a => win1_3.index t1_7 a * main_v38.ty.shape.size a) = fun _ => 0 :=
    funext fun a => by fin_cases a <;> decide
  exact (Memref.read_access_unit_zero (Elt Ideal) main_v38 hz' (fun a => by rw [congrFun hz' a]; simp)
    (lastBlock V c)).symm

/-- So the result array ends holding what the last point left: that point's block covers the array. -/
theorem final_array (c : Dev nD) : (dat1 (F := Ideal) V c).arrAt 3 cfg1.N = lastBlock V c :=
  (dat1 (F := Ideal) V c).arrAt_eq_of_cover 3 (lastBlock V c) (flushed_last V c) fun i =>
    ⟨t1_7, (flush1_3 t1_7).mpr rfl, by
      show i ∈ ((View.whole main_v38).slice (win1_3.rect t1_7)).set
      rw [View.set_slice_whole, Rect.mem_set_unit]
      intro a
      have h0 : (i 0 : Nat) < 1 := (i 0).isLt
      have h1 : (i 1 : Nat) < 1 := (i 1).isLt
      match a with
      | ⟨0, _⟩ =>
        show win1_3.index t1_7 0 * win1_3.size 0 ≤ (i 0 : Nat)
          ∧ (i 0 : Nat) < win1_3.index t1_7 0 * win1_3.size 0 + win1_3.xsize (grid1.coords t1_7) 0
        rw [show win1_3.index t1_7 0 * win1_3.size 0 = 0 from by decide +kernel,
          show win1_3.xsize (grid1.coords t1_7) 0 = 1 from by decide +kernel]
        omega
      | ⟨1, _⟩ =>
        show win1_3.index t1_7 1 * win1_3.size 1 ≤ (i 1 : Nat)
          ∧ (i 1 : Nat) < win1_3.index t1_7 1 * win1_3.size 1 + win1_3.xsize (grid1.coords t1_7) 1
        rw [show win1_3.index t1_7 1 * win1_3.size 1 = 0 from by decide +kernel,
          show win1_3.xsize (grid1.coords t1_7) 1 = 1 from by decide +kernel]
        omega⟩

/-- The eight tiles' shares add up to the tile-by-tile total. -/
theorem tiles_total (x y : Cert.Spec.SX.Idx → EReal) (w : Cert.Spec.SW.Idx → EReal) :
    ∑ t ∈ Finset.range (7 + 1), tileSumAt x y w t = Cert.Spec.tiledTotal x y w := by
  rw [Finset.sum_range]
  unfold Cert.Spec.tiledTotal
  refine Finset.sum_congr rfl fun t _ => ?_
  unfold tileSumAt
  rw [dif_pos t.isLt]
  rfl

/-- After its eight grid points the second region's [1,1] output holds the tile-by-tile weighted total of the arrays
    the region finds at its three inputs. -/
theorem total_region (c : Dev nD) (j : S1x1.Idx) :
    (dat1 (F := Ideal) V c).arrAt 3 cfg1.N j
      = Cert.Spec.tiledTotal (V c main_arg0) (V c main_arg1) (V c main_v37) := by
  rw [final_array V c]
  exact (running V c 7 lastPoint j).trans (tiles_total _ _ _)

end Cert.KernelIdeal.TotalRegion

end
-- ==== Proof.LibMaxSum.lean ====
/-
  Two laws on the extended reals that hold whatever the arrays are.

  (1) A maximum taken over every entry of an array does not change when the array is first repeated along a new
      axis: the repeated array has exactly the same set of entries, and a maximum (from a fixed starting value)
      depends on the set of entries only.
  (2) A sum over every index of a [8, 3, 512, 512] array may be taken tile by tile: the 512 rows are 8 tiles of
      64 rows, row 64·t + r being row r of tile t, and a finite sum in a commutative monoid may be taken in any order.
      Here the order is: the tile, then the column, then the row inside the tile, then the batch, then the channel.
-/
import Idealize.ShloMosaic.PureOps.Ideal
import Idealize.ShloMosaic.PureOps.Reduce
import Idealize.ShloMosaic.PureOps.Ideal.Laws
import Idealize.ShloMosaic.Lib.ValueIdx
import Mathlib.Data.Finset.Fold
import Mathlib.Algebra.BigOperators.Fin
import proofs.«118710_j35673998361264_2_alg».proof.Proof.Spec

noncomputable section

open scoped BigOperators

namespace Cert.MaxSum

open Idealize.ShloMosaic
open Idealize.ShloMosaic.ValueIdx

/-! ## A maximum over every entry sees only the set of entries -/

/-- Into a shape whose every axis has size one, every source index drops to the one result index: the set of
    indices a reduction folds over is the whole index set. -/
theorem filter_drop_eq_univ {s t : Shape} {axes : List (Fin s.rank)} (h : s.ReducesTo axes t)
    (ht : ∀ a, t.size a = 1) (j : t.Idx) : (Finset.univ.filter fun i => h.drop i = j) = Finset.univ :=
  Finset.filter_true_of_mem fun i _ => funext fun b => Fin.ext (by
    have := (h.drop i b).isLt; have := (j b).isLt; have := ht b; omega)

/-- Two families of extended reals with the same set of values have the same maximum from the same starting value:
    each fold of `max` lies below a bound exactly when the starting value and every entry do. -/
theorem fold_max_eq_of_same_values {ι κ : Type*} [Fintype ι] [Fintype κ] (b : EReal) (p : ι → EReal) (q : κ → EReal)
    (hpq : ∀ i, ∃ k, p i = q k) (hqp : ∀ k, ∃ i, q k = p i) :
    (Finset.univ : Finset ι).fold max b p = (Finset.univ : Finset κ).fold max b q := by
  refine eq_of_forall_ge_iff fun c => ?_
  rw [Finset.fold_max_le, Finset.fold_max_le]
  constructor
  · rintro ⟨hb, hp⟩
    refine ⟨hb, fun k _ => ?_⟩
    obtain ⟨i, hi⟩ := hqp k
    exact hi ▸ hp i (Finset.mem_univ i)
  · rintro ⟨hb, hq⟩
    refine ⟨hb, fun i _ => ?_⟩
    obtain ⟨k, hk⟩ := hpq i
    exact hk ▸ hq k (Finset.mem_univ k)

/-- THE MAXIMUM OF A REPEATED ARRAY. `g4` is `g` repeated along a new second axis of extent 3: its entry at
    (b, k, h, q) is `g`'s at (b, h, q), whatever k. Reduced with the maximum over every axis (into a shape all of whose
    axes have size one) from the same starting value, the two arrays give the same number: every entry of the
    repeated array is an entry of `g`, and every entry of `g` occurs in it at k = 0. -/
theorem reduce_max_repeat (g : Cert.Spec.SW.Idx → EReal) (g4 : Cert.Spec.SX.Idx → EReal)
    (hg : ∀ (b : Fin 8) (k : Fin 3) (h q : Fin 512), g4 (ValueIdx.ix4 b k h q) = g (ValueIdx.ix3 b h q))
    {ax3 : List (Fin 3)} {ax4 : List (Fin 4)} {t u : Shape} (h3 : Cert.Spec.SW.ReducesTo ax3 t)
    (h4 : Cert.Spec.SX.ReducesTo ax4 t) (ht : ∀ a, t.size a = 1) (init : u.Idx → EReal) (hu : 0 < u.numel) (j : t.Idx) :
    Host.reduce (FloatOps.maximumf (F := Ideal) (φ := .f32)) g4 init h4 hu j
      = Host.reduce (FloatOps.maximumf (F := Ideal) (φ := .f32)) g init h3 hu j := by
  rw [Host.reduce_eq_fold, Host.reduce_eq_fold, filter_drop_eq_univ h4 ht j, filter_drop_eq_univ h3 ht j]
  refine fold_max_eq_of_same_values (init (Shape.Idx.first hu)) g4 g (fun i => ?_) (fun i => ?_)
  · obtain ⟨b, k, h, q, rfl⟩ : ∃ (b : Fin 8) (k : Fin 3) (h q : Fin 512), i = ValueIdx.ix4 b k h q :=
      ⟨i 0, i 1, i 2, i 3, ValueIdx.eq_ix4 i⟩
    exact ⟨ValueIdx.ix3 b h q, hg b k h q⟩
  · obtain ⟨b, h, q, rfl⟩ : ∃ (b : Fin 8) (h q : Fin 512), i = ValueIdx.ix3 b h q :=
      ⟨i 0, i 1, i 2, ValueIdx.eq_ix3 i⟩
    exact ⟨ValueIdx.ix4 b 0 h q, (hg b 0 h q).symm⟩

/-! ## A sum over every index, tile by tile -/

/-- A rank-4 index set is the product of its four coordinate ranges … -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ValueIdx.ix4 p.1 p.2.1 p.2.2.1 p.2.2.2
  left_inv i := (ValueIdx.eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ValueIdx.ix4 a b c d) := by
  rw [← Equiv.sum_comp (idxEquiv4 (n0 := n0) (n1 := n1) (n2 := n2) (n3 := n3)).symm f]
  simp only [Fintype.sum_prod_type]
  rfl

/-- The 512 rows are 8 tiles of 64: row 64·t + r is row r of tile t, and a row h lies in tile h / 64 at position
    h mod 64. -/
def rowEquiv : Fin 8 × Fin 64 ≃ Fin 512 where
  toFun p := Cert.Spec.tileRow p.1 p.2
  invFun h := (⟨h.val / 64, by omega⟩, ⟨h.val % 64, by omega⟩)
  left_inv p := by
    refine Prod.ext (Fin.ext ?_) (Fin.ext ?_)
    · show (64 * p.1.val + p.2.val) / 64 = p.1.val
      omega
    · show (64 * p.1.val + p.2.val) % 64 = p.2.val
      omega
  right_inv h := by
    refine Fin.ext ?_
    show 64 * (h.val / 64) + h.val % 64 = h.val
    omega

/-- A sum over the 512 rows is the sum over the 8 tiles of the sums over the 64 rows of a tile. -/
theorem sum_rows_tiled {M : Type*} [AddCommMonoid M] (g : Fin 512 → M) :
    ∑ h : Fin 512, g h = ∑ t : Fin 8, ∑ r : Fin 64, g (Cert.Spec.tileRow t r) :=
  (Fintype.sum_equiv rowEquiv (fun p => g (Cert.Spec.tileRow p.1 p.2)) g (fun _ => rfl)).symm.trans
    (Fintype.sum_prod_type _)

/-- In a threefold sum the innermost range may be taken first. -/
theorem sum_rot3 {A B C M : Type*} [Fintype A] [Fintype B] [Fintype C] [AddCommMonoid M] (G : A → B → C → M) :
    ∑ a, ∑ b, ∑ c, G a b c = ∑ c, ∑ a, ∑ b, G a b c :=
  (Finset.sum_congr rfl fun _ _ => Finset.sum_comm).trans Finset.sum_comm

/-- THE TOTAL, TILE BY TILE. The sum of `f` over every index (b, k, h, q) of a [8, 3, 512, 512] array is the sum
    over the tiles t, the columns q, the rows r of the tile, the batch b and the channel k of `f` at
    (b, k, 64·t + r, q): first the index set is the product of its coordinate ranges, then the rows are split into
    tiles, then the five ranges are taken in the other order. -/
theorem sum_tiled {M : Type*} [AddCommMonoid M] (f : Cert.Spec.SX.Idx → M) :
    ∑ i : Cert.Spec.SX.Idx, f i
      = ∑ t : Fin 8, ∑ q : Fin 512, ∑ r : Fin 64, ∑ b : Fin 8, ∑ k : Fin 3,
          f (ValueIdx.ix4 b k (Cert.Spec.tileRow t r) q) :=
  calc ∑ i : Cert.Spec.SX.Idx, f i
      = ∑ b : Fin 8, ∑ k : Fin 3, ∑ h : Fin 512, ∑ q : Fin 512, f (ValueIdx.ix4 b k h q) := sum_idx4 f
    _ = ∑ b : Fin 8, ∑ k : Fin 3, ∑ t : Fin 8, ∑ r : Fin 64, ∑ q : Fin 512,
          f (ValueIdx.ix4 b k (Cert.Spec.tileRow t r) q) :=
        Finset.sum_congr rfl fun b _ => Finset.sum_congr rfl fun k _ =>
          sum_rows_tiled fun h => ∑ q : Fin 512, f (ValueIdx.ix4 b k h q)
    _ = ∑ t : Fin 8, ∑ b : Fin 8, ∑ k : Fin 3, ∑ r : Fin 64, ∑ q : Fin 512,
          f (ValueIdx.ix4 b k (Cert.Spec.tileRow t r) q) := sum_rot3 _
    _ = ∑ t : Fin 8, ∑ b : Fin 8, ∑ k : Fin 3, ∑ q : Fin 512, ∑ r : Fin 64,
          f (ValueIdx.ix4 b k (Cert.Spec.tileRow t r) q) :=
        Finset.sum_congr rfl fun _ _ => Finset.sum_congr rfl fun _ _ => Finset.sum_congr rfl fun _ _ =>
          Finset.sum_comm
    _ = ∑ t : Fin 8, ∑ q : Fin 512, ∑ b : Fin 8, ∑ k : Fin 3, ∑ r : Fin 64,
          f (ValueIdx.ix4 b k (Cert.Spec.tileRow t r) q) :=
        Finset.sum_congr rfl fun _ _ => sum_rot3 _
    _ = ∑ t : Fin 8, ∑ q : Fin 512, ∑ r : Fin 64, ∑ b : Fin 8, ∑ k : Fin 3,
          f (ValueIdx.ix4 b k (Cert.Spec.tileRow t r) q) :=
        Finset.sum_congr rfl fun _ _ => Finset.sum_congr rfl fun _ _ => sum_rot3 _

end Cert.MaxSum

end
-- ==== Proof.RefTotal.lean ====
/-
  The reference's total, read as the tiled weighted total of the specification.

  The reference repeats the pre-weights g along a channel axis of extent 3 and normalizes, chooses and clips on the
  repeated array; the weight array does the same on g itself. At (b, k, h, q) the repeated array reads g at
  (b, h, q), and every other operation of the chain is pointwise or a repeated scalar, so the reference's clipped
  array at (b, k, h, q) is the weight at (b, h, q): both are min(one, max(zero, (g / d if M > 0 else g))).
  The reference's total is then the sum over every index of |x - y| · (weight · one + one) from the starting value zero,
  and a sum over every index may be taken tile by tile.
-/
import proofs.«118710_j35673998361264_2_alg».proof.Proof.KernelWeights
import proofs.«118710_j35673998361264_2_alg».proof.Proof.LibMaxSum
import proofs.«118710_j35673998361264_2_alg».proof.Proof.Spec
import Idealize.ShloMosaic.Lib.Pipeline.Value
import Idealize.ShloMosaic.Lib.ValueIdx
import Idealize.ShloMosaic.PureOps.Ideal.Laws

noncomputable section

open scoped BigOperators

namespace Cert.RefTotal

open Idealize.ShloMosaic Idealize.ShloMosaic.ValueIdx
open Cert.ReferenceIdeal.ReadP

/-- A repeated scalar reads the scalar everywhere: a rank-0 array repeated into any shape is, at every index, its
    one entry. -/
theorem bcast0_apply {t : Shape} {α : Type} (dims : Fin 0 → Fin t.rank)
    (h : Shape.BroadcastsInDim (⟨0, ![]⟩ : Shape) t dims) (y : (⟨0, ![]⟩ : Shape).Idx → α) (j : t.Idx) :
    broadcastInDim t dims h y j = y ValueIdx.ix0 :=
  broadcastInDim_apply dims h y j ValueIdx.ix0 (fun a => a.elim0)

/-- The repeated pre-weights at (b, k, h, q) are the pre-weights at (b, h, q): the two repetitions (a new unit axis,
    then that axis stretched to 3) drop the channel coordinate. -/
theorem repeated_apply (x0 x1 : Cert.KernelIdeal.Weights.RX) (x2 : Cert.KernelIdeal.Weights.RM)
    (b : Fin 8) (k : Fin 3) (h q : Fin 512) :
    val_main_v33 (F := Ideal) x0 x1 x2 (ValueIdx.ix4 b k h q) = val_main_v31 (F := Ideal) x0 x1 x2 (ValueIdx.ix3 b h q) := by
  rw [val_main_v33_apply, val_main_v32_apply]
  exact congrArg (val_main_v31 (F := Ideal) x0 x1 x2)
    (funext fun a => Fin.ext (by match a with | ⟨0, _⟩ => rfl | ⟨1, _⟩ => rfl | ⟨2, _⟩ => rfl))

/-- The host's quotient of two arrays, read at an index, is the quotient of the entries. -/
theorem host_divf_apply {s : Shape} {φ : FTy} (x y : FVec Ideal s φ) (i : s.Idx) :
    Host.divf x y i = FloatOps.hostDivf (x i) (y i) := rfl

/-- A constant array reads its one word everywhere. -/
theorem constant_at {s : Shape} {φ : FTy} (w : BitVec φ.bits) (i : s.Idx) :
    constant (F := Ideal) s φ w i = FloatOps.ofBits (F := Ideal) φ w := rfl

/-- THE CLIPPED ARRAY IS THE WEIGHT. At (b, k, h, q) the reference's clipped, normalized array is the weight at
    (b, h, q): the bounds one and zero are repeated scalars on both sides, so are the comparison M > 0 and the
    divisor, and the repeated pre-weights read g at (b, h, q). Both sides become
    min(one, max(zero, (g / d if M > 0 else g))) with g read at (b, h, q). -/
theorem weight_apply (x0 x1 : Cert.KernelIdeal.Weights.RX) (x2 : Cert.KernelIdeal.Weights.RM)
    (b : Fin 8) (k : Fin 3) (h q : Fin 512) :
    Cert.ReferenceIdeal.ReadP.val_main_v41 (F := Ideal) x0 x1 x2 (ValueIdx.ix4 b k h q)
      = Cert.KernelIdeal.Weights.weight x0 x1 x2 (ValueIdx.ix3 b h q) := by
  have hg := repeated_apply x0 x1 x2 b k h q
  unfold Cert.KernelIdeal.Weights.weight val_main_v41 val_main_call2_v2 val_main_v40 val_main_v39 val_main_v38
    val_main_call2_v4 val_main_call2_v1
  -- from here on the repeated pre-weights, the pre-weights, the comparison and the divisor are arbitrary arrays
  generalize val_main_v33 (F := Ideal) x0 x1 x2 = G at hg ⊢
  generalize val_main_v31 (F := Ideal) x0 x1 x2 = g at hg ⊢
  generalize val_main_v35 (F := Ideal) x0 x1 x2 = p
  generalize val_main_v37 (F := Ideal) x0 x1 x2 = d
  -- the pointwise operations at the index
  rw [minimumf_apply, minimumf_apply, maximumf_apply, maximumf_apply, select_apply, select_apply]
  -- the repeated scalars: the bounds and the comparison, then (inside the quotient) the divisor
  rw [bcast0_apply, bcast0_apply, bcast0_apply, bcast0_apply, bcast0_apply, bcast0_apply]
  rw [host_divf_apply, host_divf_apply, bcast0_apply, bcast0_apply, hg]
  -- the bounds are the same two words on both sides
  rw [val_main_call2_v3_apply, val_main_cst_12_apply, val_main_call2_v0_apply, val_main_cst_11_apply, constant_at,
    constant_at]

/-- One summand of the reference's total is one summand of the specification's: |x - y| times (weight · one + one). -/
theorem summand_apply (x0 x1 : Cert.KernelIdeal.Weights.RX) (x2 : Cert.KernelIdeal.Weights.RM)
    (b : Fin 8) (k : Fin 3) (h q : Fin 512) :
    val_main_v46 (F := Ideal) x0 x1 x2 (ValueIdx.ix4 b k h q)
      = Cert.Spec.term x0 x1 (Cert.KernelIdeal.Weights.weight x0 x1 x2) b k h q := by
  rw [val_main_v46_apply, val_main_v45_apply, val_main_v43_apply, weight_apply]
  rfl

/-- THE REFERENCE'S TOTAL. The sum over every index, from the starting value zero, of the reference's summands is
    the specification's tiled total of the weight array. -/
theorem ref_total (x0 x1 : Cert.KernelIdeal.Weights.RX) (x2 : Cert.KernelIdeal.Weights.RM) (i : Cert.ReferenceIdeal.S_.Idx) :
    Cert.ReferenceIdeal.ReadP.val_main_v47 (F := Ideal) x0 x1 x2 i
      = Cert.Spec.tiledTotal x0 x1 (Cert.KernelIdeal.Weights.weight x0 x1 x2) := by
  rw [val_main_v47_apply]
  have hz : ∀ j, val_main_cst_15 (F := Ideal) j = 0 := fun _ => Ideal.ofBits_zero_f32
  rw [hz, zero_add]
  refine (Cert.MaxSum.sum_tiled _).trans ?_
  unfold Cert.Spec.tiledTotal
  exact Finset.sum_congr rfl fun t _ => Finset.sum_congr rfl fun q _ => Finset.sum_congr rfl fun r _ =>
    Finset.sum_congr rfl fun b _ => Finset.sum_congr rfl fun k _ => summand_apply x0 x1 x2 b k _ q

end Cert.RefTotal

end
-- ==== Proof.KernelValue.lean ====
/-
  The idealized kernel's result is the reference's last stage of the same arguments.
  The result buffer holds the second region's [1,1] output, reshaped to a scalar and divided by the constant 6291456.
  That output is the tile-by-tile total of |x - y| · (w · 1 + 1), x and y the arguments (no region and no host operation
  writes them) and w the weight array the host stretches leave, which is `Weights.weight` of the arguments because
  the first region's channel sums are the reference's and a max-reduce over every axis does not change when its operand
  is repeated over the three channels. The reference's total over all of [8,3,512,512] is the same tiled total, its
  weights being the kernel's at (batch, row, column) for each channel; both programs then divide by the same word.
-/
import proofs.«118710_j35673998361264_2_alg».proof.Proof.Gen.KernelIdeal.Frame
import proofs.«118710_j35673998361264_2_alg».proof.Proof.HostStages
import proofs.«118710_j35673998361264_2_alg».proof.Proof.KernelWeights
import proofs.«118710_j35673998361264_2_alg».proof.Proof.KernelEntry
import proofs.«118710_j35673998361264_2_alg».proof.Proof.TotalRegion
import proofs.«118710_j35673998361264_2_alg».proof.Proof.RefTotal
import proofs.«118710_j35673998361264_2_alg».proof.Proof.LibMaxSum

noncomputable section

namespace Cert.KernelIdeal.Value

open Cert.KernelIdeal Cert.KernelIdeal.Gen Idealize.ShloMosaic Idealize.ShloMosaic.TcCoe Idealize.SL.Sem Idealize.ShloMosaic.StableHlo
open Cert.ReferenceIdeal.ReadP

/-- The reference's broadcast pre-weights at (b, k, h, q) are its pre-weights at (b, h, q). -/
theorem repeated (x0 x1 : Weights.RX) (x2 : Weights.RM) (b : Fin 8) (k : Fin 3) (h q : Fin 512) :
    val_main_v33 (F := Ideal) x0 x1 x2 (ValueIdx.ix4 b k h q) = val_main_v31 (F := Ideal) x0 x1 x2 (ValueIdx.ix3 b h q) := by
  rw [val_main_v33_apply, val_main_v32_apply]
  exact congrArg _ (funext fun a => Fin.ext (by match a with | ⟨0, _⟩ => rfl | ⟨1, _⟩ => rfl | ⟨2, _⟩ => rfl))

/-- The maximum of the pre-weights is the reference's maximum of the broadcast pre-weights. -/
theorem max_eq (x0 x1 : Weights.RX) (x2 : Weights.RM) :
    Host.reduce FloatOps.maximumf (val_main_v31 (F := Ideal) x0 x1 x2) (constant (F := Ideal) S_ .f32 0xFF800000#32)
      reducesTo_S8x512x512_S_d0_1_2 h_S_ = val_main_v34 (F := Ideal) x0 x1 x2 :=
  funext fun j => (Cert.MaxSum.reduce_max_repeat (val_main_v31 (F := Ideal) x0 x1 x2) (val_main_v33 (F := Ideal) x0 x1 x2)
    (repeated x0 x1 x2) reducesTo_S8x512x512_S_d0_1_2 Cert.ReferenceIdeal.Facts₀.reducesTo_S8x3x512x512_S_d0_1_2_3 (fun a => a.elim0)
    (constant (F := Ideal) S_ .f32 0xFF800000#32) h_S_ j).symm

variable (m : (ℓ : Loc nD τ sig) → Buf (Elt Ideal) ℓ) (ρ : Dev nD → PrngReg) (c : Dev nD)

/-- The weight buffer at the second region's entry. -/
theorem entry_weight :
    V7 (F := Ideal) m ρ c main_v37
      = Weights.weight (m ((c : Thread nD τ).loc main_arg0)) (m ((c : Thread nD τ).loc main_arg1)) (m ((c : Thread nD τ).loc main_arg2)) :=
  Weights.weight_eq (W1 (F := Ideal) m ρ c) _ _ _ (Entry.chan_eq m ρ c) (Entry.mask_kept m ρ c) (max_eq _ _ _)

/-- The second region's output array: the tiled total of the arguments and the weight. -/
theorem region_total (j : S1x1.Idx) :
    W8 (F := Ideal) m ρ c (Proc.devRef .tc main_v38) j
      = Cert.Spec.tiledTotal (m ((c : Thread nD τ).loc main_arg0)) (m ((c : Thread nD τ).loc main_arg1))
          (Weights.weight (m ((c : Thread nD τ).loc main_arg0)) (m ((c : Thread nD τ).loc main_arg1)) (m ((c : Thread nD τ).loc main_arg2))) := by
  have h := congrFun (W8_arr (F := Ideal) m ρ c 3) j
  refine h.trans ?_
  rw [TotalRegion.total_region (V7 (F := Ideal) m ρ) c j, Entry.entry_arg0 m ρ c, Entry.entry_arg1 m ρ c, entry_weight m ρ c]

/-- The kernel's result is the reference's last stage of the same arguments. -/
theorem kernel_value :
    W9 (F := Ideal) m ρ c (Proc.devRef .tc main_v40)
      = val_main_v48 (F := Ideal) (m ((c : Thread nD τ).loc main_arg0)) (m ((c : Thread nD τ).loc main_arg1)) (m ((c : Thread nD τ).loc main_arg2)) := by
  refine (HostStages.mean (W8 (F := Ideal) m ρ c)).trans ?_
  rw [show W8 (F := Ideal) m ρ c (Proc.devRef .tc main_v38) = fun _ => Cert.Spec.tiledTotal (m ((c : Thread nD τ).loc main_arg0)) (m ((c : Thread nD τ).loc main_arg1))
          (Weights.weight (m ((c : Thread nD τ).loc main_arg0)) (m ((c : Thread nD τ).loc main_arg1)) (m ((c : Thread nD τ).loc main_arg2)))
        from funext (region_total m ρ c)]
  funext i
  show FloatOps.hostDivf _ _ = FloatOps.hostDivf _ _
  rw [Cert.RefTotal.ref_total]
  rfl

end Cert.KernelIdeal.Value

end
-- ==== Proof.RefFold.lean ====
/-
  The reference program's result as the composition of its operations' stages.

  The program is a straight line of 74 operations. Its fold over an entry valuation is cut into eight short
  stretches at the three outlined functions (two selects and a clip). Each stretch is read over an ARBITRARY entry
  valuation: if that valuation holds, at the buffers the stretch reads, the stages of the three arguments, then the
  exit valuation holds the stage at each buffer the stretch writes, and the buffers needed later are untouched.
  Chaining the eight statements gives the fold of the whole line at the result buffer, and with it the run's
  statement: the result buffer ends at the last stage of the arguments' launch contents.

  What is computed, in order: |x0 − x1|; its sum over the channel axis; two segment sums over the mask shifted by
  64 · batch, their quotient gathered back per pixel and broadcast over the channels (the weight); the weight's
  maximum; the weight divided by that maximum when it is positive; the clip of the result to [0, 1]; the total of
  |x0 − x1| · (weight · 1 + 1) over every entry; that total divided by the number of entries.
-/
import proofs.«118710_j35673998361264_2_alg».proof.Proof.RefRead

noncomputable section

namespace Cert.ReferenceIdeal.RefFold

open Cert.ReferenceIdeal Cert.ReferenceIdeal.Gen Idealize.ShloMosaic Idealize.ShloMosaic.TcCoe Idealize.SL.Sem Idealize.ShloMosaic.StableHlo

variable {F : FTy → Type} [FloatOps F]

/-- Running two lists of operations one after the other is running their concatenation. -/
theorem after_append (a b : List (HloOp τ sig (Elt F))) (V : Valuation τ sig (Elt F)) :
    after (a ++ b) V = after b (after a V) := by
  induction a generalizing V with
  | nil => rfl
  | cons op a ih => simp only [List.cons_append, after_cons, ih]

/-- Operations 0–42: the weight before normalisation, up to its broadcast over the channels (main_v33). -/
abbrev sA : List (HloOp τ sig (Elt F)) :=
  [ binary main_arg0 main_arg1 main_v0 (subf : (⟨S8x3x512x512, .f32⟩ : BufTy).Contents (Elt F) → (⟨S8x3x512x512, .f32⟩ : BufTy).Contents (Elt F) → (⟨S8x3x512x512, .f32⟩ : BufTy).Contents (Elt F)),
    unary main_v0 main_v1 (Host.absf : (⟨S8x3x512x512, .f32⟩ : BufTy).Contents (Elt F) → (⟨S8x3x512x512, .f32⟩ : BufTy).Contents (Elt F)),
    nullary main_cst (constant S_ .f32 0x00000000#32),
    binary main_v1 main_cst main_v2 ((fun x v => Host.reduceAdd x v reducesTo_S8x3x512x512_S8x512x512_d1 h_S_) : (⟨S8x3x512x512, .f32⟩ : BufTy).Contents (Elt F) → (⟨S_, .f32⟩ : BufTy).Contents (Elt F) → (⟨S8x512x512, .f32⟩ : BufTy).Contents (Elt F)),
    nullary main_v3 (iotaInDim S8 32 0),
    unary main_v3 main_v4 (broadcastInDim S8x1x1 ![0] bcast_S8_S8x1x1_0 : (⟨S8, .i32⟩ : BufTy).Contents (Elt F) → (⟨S8x1x1, .i32⟩ : BufTy).Contents (Elt F)),
    nullary main_c (constantI S_ 32 64#32),
    unary main_c main_v5 (broadcastInDim S8x1x1 ![] bcast_S_S8x1x1 : (⟨S_, .i32⟩ : BufTy).Contents (Elt F) → (⟨S8x1x1, .i32⟩ : BufTy).Contents (Elt F)),
    binary main_v4 main_v5 main_v6 (muli : (⟨S8x1x1, .i32⟩ : BufTy).Contents (Elt F) → (⟨S8x1x1, .i32⟩ : BufTy).Contents (Elt F) → (⟨S8x1x1, .i32⟩ : BufTy).Contents (Elt F)),
    unary main_v6 main_v7 (broadcastInDim S8x512x512 ![0, 1, 2] bcast_S8x1x1_S8x512x512_0_1_2 : (⟨S8x1x1, .i32⟩ : BufTy).Contents (Elt F) → (⟨S8x512x512, .i32⟩ : BufTy).Contents (Elt F)),
    binary main_arg2 main_v7 main_v8 (addi : (⟨S8x512x512, .i32⟩ : BufTy).Contents (Elt F) → (⟨S8x512x512, .i32⟩ : BufTy).Contents (Elt F) → (⟨S8x512x512, .i32⟩ : BufTy).Contents (Elt F)),
    reshape main_v8 main_v9 rfl shapeCasts_S8x512x512_S2097152,
    reshape main_v2 main_v10 rfl shapeCasts_S8x512x512_S2097152,
    nullary main_cst_0 (constant S_ .f32 0x00000000#32),
    unary main_cst_0 main_v11 (broadcastInDim S512 ![] bcast_S_S512 : (⟨S_, .f32⟩ : BufTy).Contents (Elt F) → (⟨S512, .f32⟩ : BufTy).Contents (Elt F)),
    unary main_v9 main_v12 (broadcastInDim S2097152x1 ![0] bcast_S2097152_S2097152x1_0 : (⟨S2097152, .i32⟩ : BufTy).Contents (Elt F) → (⟨S2097152x1, .i32⟩ : BufTy).Contents (Elt F)),
    ternary main_v11 main_v12 main_v10 main_v13 ((fun x i u => Host.scatterAdd scatter_S512_S2097152x1_S2097152_n_0_0_1 x i u) : (⟨S512, .f32⟩ : BufTy).Contents (Elt F) → (⟨S2097152x1, .i32⟩ : BufTy).Contents (Elt F) → (⟨S2097152, .f32⟩ : BufTy).Contents (Elt F) → (⟨S512, .f32⟩ : BufTy).Contents (Elt F)),
    nullary main_cst_1 (constant S_ .f32 0x3F800000#32),
    unary main_cst_1 main_v14 (broadcastInDim S8x512x512 ![] bcast_S_S8x512x512 : (⟨S_, .f32⟩ : BufTy).Contents (Elt F) → (⟨S8x512x512, .f32⟩ : BufTy).Contents (Elt F)),
    reshape main_v14 main_v15 rfl shapeCasts_S8x512x512_S2097152,
    nullary main_cst_2 (constant S_ .f32 0x00000000#32),
    unary main_cst_2 main_v16 (broadcastInDim S512 ![] bcast_S_S512 : (⟨S_, .f32⟩ : BufTy).Contents (Elt F) → (⟨S512, .f32⟩ : BufTy).Contents (Elt F)),
    unary main_v9 main_v17 (broadcastInDim S2097152x1 ![0] bcast_S2097152_S2097152x1_0 : (⟨S2097152, .i32⟩ : BufTy).Contents (Elt F) → (⟨S2097152x1, .i32⟩ : BufTy).Contents (Elt F)),
    ternary main_v16 main_v17 main_v15 main_v18 ((fun x i u => Host.scatterAdd scatter_S512_S2097152x1_S2097152_n_0_0_1 x i u) : (⟨S512, .f32⟩ : BufTy).Contents (Elt F) → (⟨S2097152x1, .i32⟩ : BufTy).Contents (Elt F) → (⟨S2097152, .f32⟩ : BufTy).Contents (Elt F) → (⟨S512, .f32⟩ : BufTy).Contents (Elt F)),
    nullary main_cst_3 (constant S_ .f32 0x40400000#32),
    unary main_cst_3 main_v19 (broadcastInDim S512 ![] bcast_S_S512 : (⟨S_, .f32⟩ : BufTy).Contents (Elt F) → (⟨S512, .f32⟩ : BufTy).Contents (Elt F)),
    binary main_v18 main_v19 main_v20 (mulf : (⟨S512, .f32⟩ : BufTy).Contents (Elt F) → (⟨S512, .f32⟩ : BufTy).Contents (Elt F) → (⟨S512, .f32⟩ : BufTy).Contents (Elt F)),
    nullary main_cst_4 (constant S_ .f32 0x3F800000#32),
    unary main_cst_4 main_v21 (broadcastInDim S512 ![] bcast_S_S512 : (⟨S_, .f32⟩ : BufTy).Contents (Elt F) → (⟨S512, .f32⟩ : BufTy).Contents (Elt F)),
    binary main_v20 main_v21 main_v22 (maximumf : (⟨S512, .f32⟩ : BufTy).Contents (Elt F) → (⟨S512, .f32⟩ : BufTy).Contents (Elt F) → (⟨S512, .f32⟩ : BufTy).Contents (Elt F)),
    binary main_v13 main_v22 main_v23 (Host.divf : (⟨S512, .f32⟩ : BufTy).Contents (Elt F) → (⟨S512, .f32⟩ : BufTy).Contents (Elt F) → (⟨S512, .f32⟩ : BufTy).Contents (Elt F)),
    nullary main_c_5 (constantI S_ 32 0#32),
    unary main_c_5 main_v24 (broadcastInDim S2097152 ![] bcast_S_S2097152 : (⟨S_, .i32⟩ : BufTy).Contents (Elt F) → (⟨S2097152, .i32⟩ : BufTy).Contents (Elt F)),
    binary main_v9 main_v24 main_v25 (cmpi .slt : (⟨S2097152, .i32⟩ : BufTy).Contents (Elt F) → (⟨S2097152, .i32⟩ : BufTy).Contents (Elt F) → (⟨S2097152, .i1⟩ : BufTy).Contents (Elt F)),
    nullary main_c_6 (constantI S_ 32 512#32),
    unary main_c_6 main_v26 (broadcastInDim S2097152 ![] bcast_S_S2097152 : (⟨S_, .i32⟩ : BufTy).Contents (Elt F) → (⟨S2097152, .i32⟩ : BufTy).Contents (Elt F)),
    binary main_v9 main_v26 main_v27 (addi : (⟨S2097152, .i32⟩ : BufTy).Contents (Elt F) → (⟨S2097152, .i32⟩ : BufTy).Contents (Elt F) → (⟨S2097152, .i32⟩ : BufTy).Contents (Elt F)),
    ternary main_v25 main_v27 main_v9 main_v28 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v28 main_v29 (broadcastInDim S2097152x1 ![0] bcast_S2097152_S2097152x1_0 : (⟨S2097152, .i32⟩ : BufTy).Contents (Elt F) → (⟨S2097152x1, .i32⟩ : BufTy).Contents (Elt F)),
    binary main_v23 main_v29 main_v30 ((fun x i => Host.gather gather_S512_S2097152x1_S2097152_n_0_n_n_0_1_1 x i) : (⟨S512, .f32⟩ : BufTy).Contents (Elt F) → (⟨S2097152x1, .i32⟩ : BufTy).Contents (Elt F) → (⟨S2097152, .f32⟩ : BufTy).Contents (Elt F)),
    reshape main_v30 main_v31 rfl shapeCasts_S2097152_S8x512x512,
    unary main_v31 main_v32 (broadcastInDim S8x1x512x512 ![0, 2, 3] bcast_S8x512x512_S8x1x512x512_0_2_3 : (⟨S8x512x512, .f32⟩ : BufTy).Contents (Elt F) → (⟨S8x1x512x512, .f32⟩ : BufTy).Contents (Elt F)),
    unary main_v32 main_v33 (broadcastInDim S8x3x512x512 ![0, 1, 2, 3] bcast_S8x1x512x512_S8x3x512x512_0_1_2_3 : (⟨S8x1x512x512, .f32⟩ : BufTy).Contents (Elt F) → (⟨S8x3x512x512, .f32⟩ : BufTy).Contents (Elt F)) ]
/-- Operations 43–49: the maximum of the weight, its two comparisons with zero, and the constant one. -/
abbrev sB : List (HloOp τ sig (Elt F)) :=
  [ nullary main_cst_7 (constant S_ .f32 0xFF800000#32),
    binary main_v33 main_cst_7 main_v34 ((fun x v => Host.reduce FloatOps.maximumf x v reducesTo_S8x3x512x512_S_d0_1_2_3 h_S_) : (⟨S8x3x512x512, .f32⟩ : BufTy).Contents (Elt F) → (⟨S_, .f32⟩ : BufTy).Contents (Elt F) → (⟨S_, .f32⟩ : BufTy).Contents (Elt F)),
    nullary main_cst_8 (constant S_ .f32 0x00000000#32),
    binary main_v34 main_cst_8 main_v35 (cmpf .ogt : (⟨S_, .f32⟩ : BufTy).Contents (Elt F) → (⟨S_, .f32⟩ : BufTy).Contents (Elt F) → (⟨S_, .i1⟩ : BufTy).Contents (Elt F)),
    nullary main_cst_9 (constant S_ .f32 0x00000000#32),
    binary main_v34 main_cst_9 main_v36 (cmpf .ogt : (⟨S_, .f32⟩ : BufTy).Contents (Elt F) → (⟨S_, .f32⟩ : BufTy).Contents (Elt F) → (⟨S_, .i1⟩ : BufTy).Contents (Elt F)),
    nullary main_cst_10 (constant S_ .f32 0x3F800000#32) ]
/-- Operations 50–51: the first outlined select (the divisor: the maximum if positive, else one). -/
abbrev s1 : List (HloOp τ sig (Elt F)) :=
  [ TRef.unary (TRef.of (T := ⟨S_, .f32⟩) main_cst_10) (TRef.of (T := ⟨S_, .f32⟩) main_call0_v0) id,
    TRef.ternary (TRef.of (T := ⟨S_, .i1⟩) main_v36) (TRef.of (T := ⟨S_, .f32⟩) main_v34) (TRef.of (T := ⟨S_, .f32⟩) main_call0_v0) (TRef.of (T := ⟨S_, .f32⟩) main_v37) select ]
/-- Operations 52–53: the weight divided by the broadcast divisor. -/
abbrev s2 : List (HloOp τ sig (Elt F)) :=
  [ unary main_v37 main_v38 (broadcastInDim S8x3x512x512 ![] bcast_S_S8x3x512x512 : (⟨S_, .f32⟩ : BufTy).Contents (Elt F) → (⟨S8x3x512x512, .f32⟩ : BufTy).Contents (Elt F)),
    binary main_v33 main_v38 main_v39 (Host.divf : (⟨S8x3x512x512, .f32⟩ : BufTy).Contents (Elt F) → (⟨S8x3x512x512, .f32⟩ : BufTy).Contents (Elt F) → (⟨S8x3x512x512, .f32⟩ : BufTy).Contents (Elt F)) ]
/-- Operation 54: the second outlined select (the quotient if the maximum is positive, else the weight). -/
abbrev s3 : List (HloOp τ sig (Elt F)) :=
  [ TRef.ternary (TRef.of (T := ⟨S_, .i1⟩) main_v35) (TRef.of (T := ⟨S8x3x512x512, .f32⟩) main_v39) (TRef.of (T := ⟨S8x3x512x512, .f32⟩) main_v33) (TRef.of (T := ⟨S8x3x512x512, .f32⟩) main_v40) (fun p a b => select (broadcastInDim S8x3x512x512 ![] bcast_S_S8x3x512x512 p) a b) ]
/-- Operations 55–56: the two bounds of the clip, zero and one. -/
abbrev s4 : List (HloOp τ sig (Elt F)) :=
  [ nullary main_cst_11 (constant S_ .f32 0x00000000#32),
    nullary main_cst_12 (constant S_ .f32 0x3F800000#32) ]
/-- Operations 57–62: the outlined clip, a maximum with the lower bound then a minimum with the upper bound. -/
abbrev s5 : List (HloOp τ sig (Elt F)) :=
  [ TRef.unary (TRef.of (T := ⟨S_, .f32⟩) main_cst_11) (TRef.of (T := ⟨S_, .f32⟩) main_call2_v0) id,
    TRef.unary (TRef.of (T := ⟨S_, .f32⟩) main_call2_v0) (TRef.of (T := ⟨S8x3x512x512, .f32⟩) main_call2_v1) (broadcastInDim S8x3x512x512 ![] bcast_S_S8x3x512x512),
    TRef.binary (TRef.of (T := ⟨S8x3x512x512, .f32⟩) main_call2_v1) (TRef.of (T := ⟨S8x3x512x512, .f32⟩) main_v40) (TRef.of (T := ⟨S8x3x512x512, .f32⟩) main_call2_v2) maximumf,
    TRef.unary (TRef.of (T := ⟨S_, .f32⟩) main_cst_12) (TRef.of (T := ⟨S_, .f32⟩) main_call2_v3) id,
    TRef.unary (TRef.of (T := ⟨S_, .f32⟩) main_call2_v3) (TRef.of (T := ⟨S8x3x512x512, .f32⟩) main_call2_v4) (broadcastInDim S8x3x512x512 ![] bcast_S_S8x3x512x512),
    TRef.binary (TRef.of (T := ⟨S8x3x512x512, .f32⟩) main_call2_v4) (TRef.of (T := ⟨S8x3x512x512, .f32⟩) main_call2_v2) (TRef.of (T := ⟨S8x3x512x512, .f32⟩) main_v41) minimumf ]
/-- Operations 63–73: the weighted loss, its total and the division by the number of entries. -/
abbrev s6 : List (HloOp τ sig (Elt F)) :=
  [ nullary main_cst_13 (constant S_ .f32 0x3F800000#32),
    unary main_cst_13 main_v42 (broadcastInDim S8x3x512x512 ![] bcast_S_S8x3x512x512 : (⟨S_, .f32⟩ : BufTy).Contents (Elt F) → (⟨S8x3x512x512, .f32⟩ : BufTy).Contents (Elt F)),
    binary main_v41 main_v42 main_v43 (mulf : (⟨S8x3x512x512, .f32⟩ : BufTy).Contents (Elt F) → (⟨S8x3x512x512, .f32⟩ : BufTy).Contents (Elt F) → (⟨S8x3x512x512, .f32⟩ : BufTy).Contents (Elt F)),
    nullary main_cst_14 (constant S_ .f32 0x3F800000#32),
    unary main_cst_14 main_v44 (broadcastInDim S8x3x512x512 ![] bcast_S_S8x3x512x512 : (⟨S_, .f32⟩ : BufTy).Contents (Elt F) → (⟨S8x3x512x512, .f32⟩ : BufTy).Contents (Elt F)),
    binary main_v43 main_v44 main_v45 (addf : (⟨S8x3x512x512, .f32⟩ : BufTy).Contents (Elt F) → (⟨S8x3x512x512, .f32⟩ : BufTy).Contents (Elt F) → (⟨S8x3x512x512, .f32⟩ : BufTy).Contents (Elt F)),
    binary main_v1 main_v45 main_v46 (mulf : (⟨S8x3x512x512, .f32⟩ : BufTy).Contents (Elt F) → (⟨S8x3x512x512, .f32⟩ : BufTy).Contents (Elt F) → (⟨S8x3x512x512, .f32⟩ : BufTy).Contents (Elt F)),
    nullary main_cst_15 (constant S_ .f32 0x00000000#32),
    binary main_v46 main_cst_15 main_v47 ((fun x v => Host.reduceAdd x v reducesTo_S8x3x512x512_S_d0_1_2_3 h_S_) : (⟨S8x3x512x512, .f32⟩ : BufTy).Contents (Elt F) → (⟨S_, .f32⟩ : BufTy).Contents (Elt F) → (⟨S_, .f32⟩ : BufTy).Contents (Elt F)),
    nullary main_cst_16 (constant S_ .f32 0x4AC00000#32),
    binary main_v47 main_cst_16 main_v48 (Host.divf : (⟨S_, .f32⟩ : BufTy).Contents (Elt F) → (⟨S_, .f32⟩ : BufTy).Contents (Elt F) → (⟨S_, .f32⟩ : BufTy).Contents (Elt F)) ]

/-- The whole program is the eight stretches in order. -/
theorem ops_eq : (Cert.ReferenceIdeal.ValueP.ops (F := F)) = sA ++ (sB ++ (s1 ++ (s2 ++ (s3 ++ (s4 ++ (s5 ++ s6)))))) := rfl

/-! ## Each stretch, read over an arbitrary entry valuation

For every stretch: if the entry valuation holds, at the buffers the stretch reads, the stages of the arguments
`x0 x1 x2`, then the exit valuation holds the stage of each buffer the stretch writes; and the buffers a later
stretch still needs are left as they were. -/

/-- The first stretch writes the absolute difference |x0 − x1|. -/
theorem sA_v1 (V : Valuation τ sig (Elt F)) :
    after (sA (F := F)) V (Proc.devRef .tc main_v1)
      = ReadP.val_main_v1 (F := F) (V (Proc.devRef .tc main_arg0)) (V (Proc.devRef .tc main_arg1)) := by
  dsimp only [sA]
  after_results_simp
  rfl

/-- The first stretch writes the unnormalised weight, broadcast over the three channels: the two segment sums over
    the shifted mask, their quotient, gathered back per pixel. -/
theorem sA_v33 (V : Valuation τ sig (Elt F)) :
    after (sA (F := F)) V (Proc.devRef .tc main_v33)
      = ReadP.val_main_v33 (F := F) (V (Proc.devRef .tc main_arg0)) (V (Proc.devRef .tc main_arg1)) (V (Proc.devRef .tc main_arg2)) := by
  dsimp only [sA]
  after_results_simp
  rfl

/-- The second stretch writes the maximum of the weight over every entry. -/
theorem sB_v34 (W : Valuation τ sig (Elt F)) (x0 x1 : (⟨S8x3x512x512, .f32⟩ : BufTy).Contents (Elt F)) (x2 : (⟨S8x512x512, .i32⟩ : BufTy).Contents (Elt F))
    (h33 : W (Proc.devRef .tc main_v33) = ReadP.val_main_v33 (F := F) x0 x1 x2) :
    after (sB (F := F)) W (Proc.devRef .tc main_v34) = ReadP.val_main_v34 (F := F) x0 x1 x2 := by
  dsimp only [sB]
  after_results
  rw [h33]
  rfl

/-- The second stretch writes the comparison "maximum > 0" (its first copy). -/
theorem sB_v35 (W : Valuation τ sig (Elt F)) (x0 x1 : (⟨S8x3x512x512, .f32⟩ : BufTy).Contents (Elt F)) (x2 : (⟨S8x512x512, .i32⟩ : BufTy).Contents (Elt F))
    (h33 : W (Proc.devRef .tc main_v33) = ReadP.val_main_v33 (F := F) x0 x1 x2) :
    after (sB (F := F)) W (Proc.devRef .tc main_v35) = ReadP.val_main_v35 (F := F) x0 x1 x2 := by
  dsimp only [sB]
  after_results
  rw [h33]
  rfl

/-- The second stretch writes the comparison "maximum > 0" (its second copy). -/
theorem sB_v36 (W : Valuation τ sig (Elt F)) (x0 x1 : (⟨S8x3x512x512, .f32⟩ : BufTy).Contents (Elt F)) (x2 : (⟨S8x512x512, .i32⟩ : BufTy).Contents (Elt F))
    (h33 : W (Proc.devRef .tc main_v33) = ReadP.val_main_v33 (F := F) x0 x1 x2) :
    after (sB (F := F)) W (Proc.devRef .tc main_v36) = ReadP.val_main_v36 (F := F) x0 x1 x2 := by
  dsimp only [sB]
  after_results
  rw [h33]
  rfl

/-- The second stretch writes the constant one. -/
theorem sB_cst_10 (W : Valuation τ sig (Elt F)) :
    after (sB (F := F)) W (Proc.devRef .tc main_cst_10) = ReadP.val_main_cst_10 (F := F) := by
  dsimp only [sB]
  after_results
  rfl

/-- The second stretch leaves the absolute difference and the weight as they were. -/
theorem sB_keep (W : Valuation τ sig (Elt F)) :
    after (sB (F := F)) W (Proc.devRef .tc main_v1) = W (Proc.devRef .tc main_v1)
      ∧ after (sB (F := F)) W (Proc.devRef .tc main_v33) = W (Proc.devRef .tc main_v33) := by
  dsimp only [sB]
  refine ⟨?_, ?_⟩ <;> after_results

/-- The first outlined select, over the entry valuation's own contents: it writes the select of its three operands
    (the third through a conversion that is the identity). -/
theorem s1_select (W : Valuation τ sig (Elt F)) (p : (⟨S_, .i1⟩ : BufTy).Contents (Elt F)) (a c : (⟨S_, .f32⟩ : BufTy).Contents (Elt F))
    (hp : W (Proc.devRef .tc main_v36) = p) (ha : W (Proc.devRef .tc main_v34) = a)
    (hc : W (Proc.devRef .tc main_cst_10) = c) :
    after (s1 (F := F)) W (Proc.devRef .tc main_v37) = select p a (id c) := by
  subst hp ha hc
  dsimp only [s1]
  after_results
  rfl

/-- The first outlined select writes the divisor: the maximum where it is positive, else one. -/
theorem s1_v37 (W : Valuation τ sig (Elt F)) (x0 x1 : (⟨S8x3x512x512, .f32⟩ : BufTy).Contents (Elt F)) (x2 : (⟨S8x512x512, .i32⟩ : BufTy).Contents (Elt F))
    (h36 : W (Proc.devRef .tc main_v36) = ReadP.val_main_v36 (F := F) x0 x1 x2)
    (h34 : W (Proc.devRef .tc main_v34) = ReadP.val_main_v34 (F := F) x0 x1 x2)
    (h10 : W (Proc.devRef .tc main_cst_10) = ReadP.val_main_cst_10 (F := F)) :
    after (s1 (F := F)) W (Proc.devRef .tc main_v37) = ReadP.val_main_v37 (F := F) x0 x1 x2 := by
  unfold ReadP.val_main_v37 ReadP.val_main_call0_v0
  exact s1_select W _ _ _ h36 h34 h10

/-- The first outlined select leaves the absolute difference, the weight and the first comparison as they were. -/
theorem s1_keep (W : Valuation τ sig (Elt F)) :
    after (s1 (F := F)) W (Proc.devRef .tc main_v1) = W (Proc.devRef .tc main_v1)
      ∧ after (s1 (F := F)) W (Proc.devRef .tc main_v33) = W (Proc.devRef .tc main_v33)
      ∧ after (s1 (F := F)) W (Proc.devRef .tc main_v35) = W (Proc.devRef .tc main_v35) := by
  dsimp only [s1]
  refine ⟨?_, ?_, ?_⟩ <;> after_results

/-- The fourth stretch writes the weight divided, entry by entry, by the broadcast divisor. -/
theorem s2_v39 (W : Valuation τ sig (Elt F)) (x0 x1 : (⟨S8x3x512x512, .f32⟩ : BufTy).Contents (Elt F)) (x2 : (⟨S8x512x512, .i32⟩ : BufTy).Contents (Elt F))
    (h33 : W (Proc.devRef .tc main_v33) = ReadP.val_main_v33 (F := F) x0 x1 x2)
    (h37 : W (Proc.devRef .tc main_v37) = ReadP.val_main_v37 (F := F) x0 x1 x2) :
    after (s2 (F := F)) W (Proc.devRef .tc main_v39) = ReadP.val_main_v39 (F := F) x0 x1 x2 := by
  dsimp only [s2]
  after_results
  rw [h33, h37]
  rfl

/-- The fourth stretch leaves the absolute difference, the weight and the first comparison as they were. -/
theorem s2_keep (W : Valuation τ sig (Elt F)) :
    after (s2 (F := F)) W (Proc.devRef .tc main_v1) = W (Proc.devRef .tc main_v1)
      ∧ after (s2 (F := F)) W (Proc.devRef .tc main_v33) = W (Proc.devRef .tc main_v33)
      ∧ after (s2 (F := F)) W (Proc.devRef .tc main_v35) = W (Proc.devRef .tc main_v35) := by
  dsimp only [s2]
  refine ⟨?_, ?_, ?_⟩ <;> after_results

/-- The second outlined select, over the entry valuation's own contents: it writes the select of its second and
    third operands under the broadcast of the first. -/
theorem s3_select (W : Valuation τ sig (Elt F)) (p : (⟨S_, .i1⟩ : BufTy).Contents (Elt F)) (a b : (⟨S8x3x512x512, .f32⟩ : BufTy).Contents (Elt F))
    (hp : W (Proc.devRef .tc main_v35) = p) (ha : W (Proc.devRef .tc main_v39) = a)
    (hb : W (Proc.devRef .tc main_v33) = b) :
    after (s3 (F := F)) W (Proc.devRef .tc main_v40)
      = select (broadcastInDim S8x3x512x512 ![] bcast_S_S8x3x512x512 p) a b := by
  subst hp ha hb
  dsimp only [s3]
  after_results
  rfl

/-- The second outlined select writes the normalised weight: the quotient where the maximum is positive, else the
    weight itself. -/
theorem s3_v40 (W : Valuation τ sig (Elt F)) (x0 x1 : (⟨S8x3x512x512, .f32⟩ : BufTy).Contents (Elt F)) (x2 : (⟨S8x512x512, .i32⟩ : BufTy).Contents (Elt F))
    (h35 : W (Proc.devRef .tc main_v35) = ReadP.val_main_v35 (F := F) x0 x1 x2)
    (h39 : W (Proc.devRef .tc main_v39) = ReadP.val_main_v39 (F := F) x0 x1 x2)
    (h33 : W (Proc.devRef .tc main_v33) = ReadP.val_main_v33 (F := F) x0 x1 x2) :
    after (s3 (F := F)) W (Proc.devRef .tc main_v40) = ReadP.val_main_v40 (F := F) x0 x1 x2 := by
  unfold ReadP.val_main_v40
  exact s3_select W _ _ _ h35 h39 h33

/-- The second outlined select leaves the absolute difference as it was. -/
theorem s3_keep (W : Valuation τ sig (Elt F)) :
    after (s3 (F := F)) W (Proc.devRef .tc main_v1) = W (Proc.devRef .tc main_v1) := by
  dsimp only [s3]
  after_results

/-- The sixth stretch writes the two bounds of the clip, zero and one. -/
theorem s4_cst (W : Valuation τ sig (Elt F)) :
    after (s4 (F := F)) W (Proc.devRef .tc main_cst_11) = ReadP.val_main_cst_11 (F := F)
      ∧ after (s4 (F := F)) W (Proc.devRef .tc main_cst_12) = ReadP.val_main_cst_12 (F := F) := by
  dsimp only [s4]
  refine ⟨?_, ?_⟩ <;> after_results <;> rfl

/-- The sixth stretch leaves the absolute difference and the normalised weight as they were. -/
theorem s4_keep (W : Valuation τ sig (Elt F)) :
    after (s4 (F := F)) W (Proc.devRef .tc main_v1) = W (Proc.devRef .tc main_v1)
      ∧ after (s4 (F := F)) W (Proc.devRef .tc main_v40) = W (Proc.devRef .tc main_v40) := by
  dsimp only [s4]
  refine ⟨?_, ?_⟩ <;> after_results

/-- The outlined clip, over the entry valuation's own contents: the minimum of the broadcast upper bound and the
    maximum of the broadcast lower bound and the operand (both bounds through a conversion that is the identity). -/
theorem s5_clip (W : Valuation τ sig (Elt F)) (a : (⟨S8x3x512x512, .f32⟩ : BufTy).Contents (Elt F)) (lo hi : (⟨S_, .f32⟩ : BufTy).Contents (Elt F))
    (ha : W (Proc.devRef .tc main_v40) = a) (hlo : W (Proc.devRef .tc main_cst_11) = lo)
    (hhi : W (Proc.devRef .tc main_cst_12) = hi) :
    after (s5 (F := F)) W (Proc.devRef .tc main_v41)
      = minimumf (broadcastInDim S8x3x512x512 ![] bcast_S_S8x3x512x512 (id hi))
          (maximumf (broadcastInDim S8x3x512x512 ![] bcast_S_S8x3x512x512 (id lo)) a) := by
  subst ha hlo hhi
  dsimp only [s5]
  after_results
  rfl

/-- The outlined clip writes the normalised weight clipped to [0, 1]: the minimum of one and the maximum of zero
    and the weight. -/
theorem s5_v41 (W : Valuation τ sig (Elt F)) (x0 x1 : (⟨S8x3x512x512, .f32⟩ : BufTy).Contents (Elt F)) (x2 : (⟨S8x512x512, .i32⟩ : BufTy).Contents (Elt F))
    (h40 : W (Proc.devRef .tc main_v40) = ReadP.val_main_v40 (F := F) x0 x1 x2)
    (h11 : W (Proc.devRef .tc main_cst_11) = ReadP.val_main_cst_11 (F := F))
    (h12 : W (Proc.devRef .tc main_cst_12) = ReadP.val_main_cst_12 (F := F)) :
    after (s5 (F := F)) W (Proc.devRef .tc main_v41) = ReadP.val_main_v41 (F := F) x0 x1 x2 := by
  unfold ReadP.val_main_v41 ReadP.val_main_call2_v4 ReadP.val_main_call2_v3 ReadP.val_main_call2_v2
    ReadP.val_main_call2_v1 ReadP.val_main_call2_v0
  exact s5_clip W _ _ _ h40 h11 h12

/-- The outlined clip leaves the absolute difference as it was. -/
theorem s5_keep (W : Valuation τ sig (Elt F)) :
    after (s5 (F := F)) W (Proc.devRef .tc main_v1) = W (Proc.devRef .tc main_v1) := by
  dsimp only [s5]
  after_results

/-- The last stretch writes the result: the sum over every entry of |x0 − x1| · (w · 1 + 1), divided by the number
    of entries. -/
theorem s6_v48 (W : Valuation τ sig (Elt F)) (x0 x1 : (⟨S8x3x512x512, .f32⟩ : BufTy).Contents (Elt F)) (x2 : (⟨S8x512x512, .i32⟩ : BufTy).Contents (Elt F))
    (h41 : W (Proc.devRef .tc main_v41) = ReadP.val_main_v41 (F := F) x0 x1 x2)
    (h1 : W (Proc.devRef .tc main_v1) = ReadP.val_main_v1 (F := F) x0 x1) :
    after (s6 (F := F)) W (Proc.devRef .tc main_v48) = ReadP.val_main_v48 (F := F) x0 x1 x2 := by
  dsimp only [s6]
  after_results
  rw [h41, h1]
  rfl

/-! ## The whole fold -/

/-- The fold of the whole program, at the result buffer, is the last stage of the arguments: the stretches in
    order, each handing the next the stages at the buffers still needed. -/
theorem ref_fold {F : FTy → Type} [FloatOps F] (V : Valuation τ sig (Elt F)) :
    after (Cert.ReferenceIdeal.ValueP.ops (F := F)) V (Proc.devRef .tc main_v48)
      = Cert.ReferenceIdeal.ReadP.val_main_v48 (F := F) (V (Proc.devRef .tc main_arg0)) (V (Proc.devRef .tc main_arg1)) (V (Proc.devRef .tc main_arg2)) := by
  rw [ops_eq]
  simp only [after_append]
  -- after operations 0–42: the absolute difference and the weight
  have a1 := sA_v1 V
  have a33 := sA_v33 V
  generalize after (sA (F := F)) V = W0 at a1 a33 ⊢
  -- after operations 43–49: the maximum, its comparisons, the constant one
  have b34 := sB_v34 W0 _ _ _ a33
  have b35 := sB_v35 W0 _ _ _ a33
  have b36 := sB_v36 W0 _ _ _ a33
  have b10 := sB_cst_10 W0
  have b1 := (sB_keep W0).1.trans a1
  have b33 := (sB_keep W0).2.trans a33
  generalize after (sB (F := F)) W0 = W1 at b34 b35 b36 b10 b1 b33 ⊢
  -- after the first outlined select: the divisor
  have c37 := s1_v37 W1 _ _ _ b36 b34 b10
  have c1 := (s1_keep W1).1.trans b1
  have c33 := (s1_keep W1).2.1.trans b33
  have c35 := (s1_keep W1).2.2.trans b35
  generalize after (s1 (F := F)) W1 = W2 at c37 c1 c33 c35 ⊢
  -- after the division
  have d39 := s2_v39 W2 _ _ _ c33 c37
  have d1 := (s2_keep W2).1.trans c1
  have d33 := (s2_keep W2).2.1.trans c33
  have d35 := (s2_keep W2).2.2.trans c35
  generalize after (s2 (F := F)) W2 = W3 at d39 d1 d33 d35 ⊢
  -- after the second outlined select: the normalised weight
  have e40 := s3_v40 W3 _ _ _ d35 d39 d33
  have e1 := (s3_keep W3).trans d1
  generalize after (s3 (F := F)) W3 = W4 at e40 e1 ⊢
  -- after the two bounds
  have f11 := (s4_cst W4).1
  have f12 := (s4_cst W4).2
  have f1 := (s4_keep W4).1.trans e1
  have f40 := (s4_keep W4).2.trans e40
  generalize after (s4 (F := F)) W4 = W5 at f11 f12 f1 f40 ⊢
  -- after the outlined clip
  have g41 := s5_v41 W5 _ _ _ f40 f11 f12
  have g1 := (s5_keep W5).trans f1
  generalize after (s5 (F := F)) W5 = W6 at g41 g1 ⊢
  -- the last stretch
  exact s6_v48 W6 _ _ _ g41 g1

/-- The reference's run: every weakly fair execution terminates with the result buffer at the last stage of the
    launch contents of the three arguments, and the arguments unchanged. -/
theorem ref_run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48) = Cert.ReferenceIdeal.ReadP.val_main_v48 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (ref_fold (launchContents m c)), (h c).2⟩)
    (Cert.ReferenceIdeal.ValueP.run m ρ)

end Cert.ReferenceIdeal.RefFold

end
-- ==== Proof.lean ====
/-
  The certificate of a weighted mean absolute difference.

  For x, y : f32[8,3,512,512] and an integer mask [8,512,512] both programs compute
      mean over (b,k,h,q) of |x - y|(b,k,h,q) · (w(b,h,q) · 1 + 1),
  where w in [0,1] is built from the channel sums s(b,h,q) = Σ_k |x - y|(b,k,h,q): the mean of s over each (batch, region)
  segment of the mask, gathered back to the pixels, divided by its maximum when that is positive, and clipped.
  The kernel computes s in a first tiled region, the weights on the host, and the total in a second region that accumulates
  eight row tiles into a [1,1] block; the reference is one host program.

  On the extended reals the two results are the same function of the arguments, with no hypothesis on the inputs:
    the channel sums agree (a lane sum and a host sum of the same three terms);
    the host operations from the channel sums and the mask to the pre-weights are the same operations, term for term;
    the maximum over [8,512,512] is the maximum over its repetition along the channel axis;
    from there the weights agree entry by entry, the reference's at (b,k,h,q) being the kernel's at (b,h,q);
    the total over all of [8,3,512,512] is the sum, over the eight tiles, of each tile's columns, rows, batches and channels:
      sums in the additive commutative monoid of the extended reals reassociate freely;
    both divide by the same word.
  The three frames are the generated frame of each kernel program and the reference's run with its result dropped;
  the idealization rewrote no operation, so `preserves` is `True`.
-/
import proofs.«118710_j35673998361264_2_alg».proof.Defs
import proofs.«118710_j35673998361264_2_alg».proof.Proof.Gen.Kernel
import proofs.«118710_j35673998361264_2_alg».proof.Proof.Gen.Kernel.Skeleton
import proofs.«118710_j35673998361264_2_alg».proof.Proof.Gen.Kernel.Launch
import proofs.«118710_j35673998361264_2_alg».proof.Proof.Gen.Kernel.Points
import proofs.«118710_j35673998361264_2_alg».proof.Proof.Gen.Kernel.Frame
import proofs.«118710_j35673998361264_2_alg».proof.Proof.Gen.KernelIdeal
import proofs.«118710_j35673998361264_2_alg».proof.Proof.Gen.KernelIdeal.Skeleton
import proofs.«118710_j35673998361264_2_alg».proof.Proof.Gen.KernelIdeal.Launch
import proofs.«118710_j35673998361264_2_alg».proof.Proof.Gen.KernelIdeal.Points
import proofs.«118710_j35673998361264_2_alg».proof.Proof.Gen.KernelIdeal.Frame
import proofs.«118710_j35673998361264_2_alg».proof.Proof.Gen.ReferenceIdeal
import proofs.«118710_j35673998361264_2_alg».proof.Proof.Gen.Pre_finite_inputs
import proofs.«118710_j35673998361264_2_alg».proof.Proof.KernelRun
import proofs.«118710_j35673998361264_2_alg».proof.Proof.KernelValue
import proofs.«118710_j35673998361264_2_alg».proof.Proof.RefFold
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- No operation was rewritten. -/
theorem preserves : Cert.preserves_Kernel_KernelIdeal := trivial

/-- From memories agreeing on the arguments both programs end with the reference's last stage of those arguments. -/
theorem algebraic : Cert.algebraic_KernelIdeal_ReferenceIdeal := by
  intro m ρ m' ρ' _ hagree
  refine ⟨fun c => Cert.ReferenceIdeal.ReadP.val_main_v48 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Value.kernel_value m ρ c), (h c).2⟩)
      (Cert.KernelIdeal.KRun.run_result (F := Ideal) m ρ)
  · refine (θ_run Cert.ReferenceIdeal.defs _ _).mono (fun _ h c => ⟨(h c).1.trans ?_, (h c).2⟩)
      (Cert.ReferenceIdeal.RefFold.ref_run (F := Ideal) m' ρ')
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
